-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x4096 : Shape := ⟨3, ![2, 512, 4096]⟩
abbrev S32x4096 : Shape := ⟨2, ![32, 4096]⟩
abbrev S8192x16 : Shape := ⟨2, ![8192, 16]⟩
abbrev S_ : Shape := ⟨0, ![]⟩

class Facts : Prop where
  bcast_S_S2x512x4096 : S_.BroadcastsInDim S2x512x4096 (![] : Fin 0 → Fin S2x512x4096.rank)
  reducesTo_S2x512x4096_S_d0_1_2 : S2x512x4096.ReducesTo [0, 1, 2] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S8192x16 : S_.BroadcastsInDim S8192x16 (![] : Fin 0 → Fin S8192x16.rank)
  reducesTo_S8192x16_S_d0_1 : S8192x16.ReducesTo [0, 1] S_

variable [Facts]

def fn {F : FTy → Type} [FloatOps F] (main_arg0 : FVec F S2x512x4096 .f32) (main_arg1 : FVec F S32x4096 .f32) (main_arg2 : FVec F S8192x16 .f32) : IVec S_ 1 :=
  let main_v0 : FVec F S2x512x4096 .f32 := Host.absf main_arg0
  let main_cst : FVec F S_ .f32 := constant S_ .f32 0x7F800000#32
  let main_v1 : FVec F S2x512x4096 .f32 := broadcastInDim S2x512x4096 ![] bcast_S_S2x512x4096 main_cst
  let main_v2 : IVec S2x512x4096 1 := cmpf .olt main_v0 main_v1
  let main_c : IVec S_ 1 := constantI S_ 1 1#1
  let main_v3 : IVec S_ 1 := (fun x v => Host.reduce IntOp.andi x v reducesTo_S2x512x4096_S_d0_1_2 h_S_) main_v2 main_c
  let main_v4 : FVec F S32x4096 .f32 := Host.absf main_arg1
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  let main_v9 : FVec F S8192x16 .f32 := Host.absf main_arg2
  let main_cst_2 : FVec F S_ .f32 := constant S_ .f32 0x7F800000#32
  let main_v10 : FVec F S8192x16 .f32 := broadcastInDim S8192x16 ![] bcast_S_S8192x16 main_cst_2
  let main_v11 : IVec S8192x16 1 := cmpf .olt main_v9 main_v10
  let main_c_3 : IVec S_ 1 := constantI S_ 1 1#1
  let main_v12 : IVec S_ 1 := (fun x v => Host.reduce IntOp.andi x v reducesTo_S8192x16_S_d0_1 h_S_) main_v11 main_c_3
  let main_v13 : IVec S_ 1 := andi main_v8 main_v12
  main_v13
-- ==== Kernel.lean ====
abbrev S2x512x4096 : Shape := ⟨3, ![2, 512, 4096]⟩
abbrev S32x4096 : Shape := ⟨2, ![32, 4096]⟩
abbrev S8192x16 : Shape := ⟨2, ![8192, 16]⟩
abbrev S1024x4096 : Shape := ⟨2, ![1024, 4096]⟩
abbrev S2x16x4096 : Shape := ⟨3, ![2, 16, 4096]⟩
abbrev S2x4096x16 : Shape := ⟨3, ![2, 4096, 16]⟩
abbrev S1024x12288 : Shape := ⟨2, ![1024, 12288]⟩
abbrev S128x4096 : Shape := ⟨2, ![128, 4096]⟩
abbrev S128x12288 : Shape := ⟨2, ![128, 12288]⟩
abbrev S1x16x4096 : Shape := ⟨3, ![1, 16, 4096]⟩
abbrev S16x4096 : Shape := ⟨2, ![16, 4096]⟩
abbrev S128x16 : Shape := ⟨2, ![128, 16]⟩
abbrev S2x512x12288 : Shape := ⟨3, ![2, 512, 12288]⟩

abbrev nBuf : Space → Nat
  | .hbm => 11
  | .vmem => 6
  | .smem => 0
  | _ => 0

abbrev bufTy : (tb : Table) → Fin (tcTables nBuf tb) → BufTy
  | .hbm, ⟨0, _⟩ => ⟨S2x512x4096, .f32⟩
  | .hbm, ⟨1, _⟩ => ⟨S32x4096, .f32⟩
  | .hbm, ⟨2, _⟩ => ⟨S8192x16, .f32⟩
  | .hbm, ⟨3, _⟩ => ⟨S1024x4096, .f32⟩
  | .hbm, ⟨4, _⟩ => ⟨S2x16x4096, .f32⟩
  | .hbm, ⟨5, _⟩ => ⟨S2x16x4096, .bf16⟩
  | .hbm, ⟨6, _⟩ => ⟨S2x4096x16, .f32⟩
  | .hbm, ⟨7, _⟩ => ⟨S2x16x4096, .f32⟩
  | .hbm, ⟨8, _⟩ => ⟨S2x16x4096, .bf16⟩
  | .hbm, ⟨9, _⟩ => ⟨S1024x12288, .f32⟩
  | .hbm, ⟨10, _⟩ => ⟨S2x512x12288, .f32⟩
  | .local _ .vmem, ⟨0, _⟩ => ⟨S128x4096, .f32⟩
  | .local _ .vmem, ⟨1, _⟩ => ⟨S128x4096, .f32⟩
  | .local _ .vmem, ⟨2, _⟩ => ⟨S2x16x4096, .bf16⟩
  | .local _ .vmem, ⟨3, _⟩ => ⟨S2x16x4096, .bf16⟩
  | .local _ .vmem, ⟨4, _⟩ => ⟨S128x12288, .f32⟩
  | .local _ .vmem, ⟨5, _⟩ => ⟨S128x12288, .f32⟩
  | _, _ => ⟨S2x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x16x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x16x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x12288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x512x4096_S1024x4096 : S2x512x4096.ShapeCasts S1024x4096
  shapeCasts_S32x4096_S2x16x4096 : S32x4096.ShapeCasts S2x16x4096
  bitsLt_bf16_f32 : FTy.bits .bf16 < FTy.bits .f32
  shapeCasts_S8192x16_S2x4096x16 : S8192x16.ShapeCasts S2x4096x16
  transposes_S2x4096x16_S2x16x4096_0_2_1 : S2x4096x16.Transposes [0, 2, 1] S2x16x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S2x16x4096_S1x16x4096_0_0_0 : ∀ a, (![0, 0, 0] : Fin 3 → Nat) a + S1x16x4096.size a ≤ S2x16x4096.size a
  h_S1x16x4096 : 0 < S1x16x4096.numel
  shapeCasts_S1x16x4096_S16x4096 : S1x16x4096.ShapeCasts S16x4096
  inb_S128x12288_S128x4096_0_0 : ∀ a, (![0, 0] : Fin 2 → Nat) a + S128x4096.size a ≤ S128x12288.size a
  inb_S128x12288_S128x4096_0_4096 : ∀ a, (![0, 4096] : Fin 2 → Nat) a + S128x4096.size a ≤ S128x12288.size a
  inb_S2x16x4096_S1x16x4096_1_0_0 : ∀ a, (![1, 0, 0] : Fin 3 → Nat) a + S1x16x4096.size a ≤ S2x16x4096.size a
  inb_S128x12288_S128x4096_0_8192 : ∀ a, (![0, 8192] : Fin 2 → Nat) a + S128x4096.size a ≤ S128x12288.size a
  shapeCasts_S1024x12288_S2x512x12288 : S1024x12288.ShapeCasts S2x512x12288
  dot_S128x4096_S16x4096_S128x16_1_1_0_0_n_n_wf : DotDims.WF S128x4096 S16x4096 S128x16 [1] [1] [0] [0] [] []
  dot_S128x16_S16x4096_S128x4096_1_0_0_1_n_n_wf : DotDims.WF S128x16 S16x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S1024x4096.size a
  hwx0_0 : ∀ i : grid0.Coords, EltTy.bits .f32 = 32 ∨ (Rect.block (s := S1024x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x16x4096.size a ≤ S2x16x4096.size a
  hwx0_1 : ∀ i : grid0.Coords, EltTy.bits .bf16 = 32 ∨ (Rect.block (s := S2x16x4096) S2x16x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x16x4096.size a ≤ S2x16x4096.size a
  hwx0_2 : ∀ i : grid0.Coords, EltTy.bits .bf16 = 32 ∨ (Rect.block (s := S2x16x4096) S2x16x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x12288.size a ≤ S1024x12288.size a
  hwx0_3 : ∀ i : grid0.Coords, EltTy.bits .f32 = 32 ∨ (Rect.block (s := S1024x12288) S128x12288.size (cc0_transform_3 i) (hinb0_3 i)).WholeWords (EltTy.packing .f32)

variable [Facts₀]

def dot_S128x4096_S16x4096_S128x16_1_1_0_0_n_n : DotDims S128x4096 S16x4096 S128x16 where
  lhsContracting := [1]
  rhsContracting := [1]
  lhsNonContracting := [0]
  rhsNonContracting := [0]
  lhsBatch := []
  rhsBatch := []
  wf := dot_S128x4096_S16x4096_S128x16_1_1_0_0_n_n_wf
def dot_S128x16_S16x4096_S128x4096_1_0_0_1_n_n : DotDims S128x16 S16x4096 S128x4096 where
  lhsContracting := [1]
  rhsContracting := [0]
  lhsNonContracting := [0]
  rhsNonContracting := [1]
  lhsBatch := []
  rhsBatch := []
  wf := dot_S128x16_S16x4096_S128x4096_1_0_0_1_n_n_wf

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2x16x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2x16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x12288.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x512x4096 : Shape := ⟨3, ![2, 512, 4096]⟩
abbrev S32x4096 : Shape := ⟨2, ![32, 4096]⟩
abbrev S8192x16 : Shape := ⟨2, ![8192, 16]⟩
abbrev S2 : Shape := ⟨1, ![2]⟩
abbrev S2x16x4096 : Shape := ⟨3, ![2, 16, 4096]⟩
abbrev S2x4096x16 : Shape := ⟨3, ![2, 4096, 16]⟩
abbrev S2x4096x4096 : Shape := ⟨3, ![2, 4096, 4096]⟩
abbrev S_ : Shape := ⟨0, ![]⟩
abbrev S3x4096x4096 : Shape := ⟨3, ![3, 4096, 4096]⟩
abbrev S2x1 : Shape := ⟨2, ![2, 1]⟩
abbrev S12288x4096 : Shape := ⟨2, ![12288, 4096]⟩
abbrev S2x512x12288 : Shape := ⟨3, ![2, 512, 12288]⟩

abbrev nBuf : Space → Nat
  | .hbm => 20
  | .vmem => 0
  | .smem => 0
  | _ => 0

abbrev bufTy : (tb : Table) → Fin (tcTables nBuf tb) → BufTy
  | .hbm, ⟨0, _⟩ => ⟨S2x512x4096, .f32⟩
  | .hbm, ⟨1, _⟩ => ⟨S32x4096, .f32⟩
  | .hbm, ⟨2, _⟩ => ⟨S8192x16, .f32⟩
  | .hbm, ⟨3, _⟩ => ⟨S2, .i32⟩
  | .hbm, ⟨4, _⟩ => ⟨S2x16x4096, .f32⟩
  | .hbm, ⟨5, _⟩ => ⟨S2x4096x16, .f32⟩
  | .hbm, ⟨6, _⟩ => ⟨S2x4096x4096, .f32⟩
  | .hbm, ⟨7, _⟩ => ⟨S_, .f32⟩
  | .hbm, ⟨8, _⟩ => ⟨S3x4096x4096, .f32⟩
  | .hbm, ⟨9, _⟩ => ⟨S_, .i32⟩
  | .hbm, ⟨10, _⟩ => ⟨S2, .i32⟩
  | .hbm, ⟨11, _⟩ => ⟨S2, .i1⟩
  | .hbm, ⟨12, _⟩ => ⟨S_, .i32⟩
  | .hbm, ⟨13, _⟩ => ⟨S2, .i32⟩
  | .hbm, ⟨14, _⟩ => ⟨S2, .i32⟩
  | .hbm, ⟨15, _⟩ => ⟨S2, .i32⟩
  | .hbm, ⟨16, _⟩ => ⟨S2x1, .i32⟩
  | .hbm, ⟨17, _⟩ => ⟨S3x4096x4096, .f32⟩
  | .hbm, ⟨18, _⟩ => ⟨S12288x4096, .f32⟩
  | .hbm, ⟨19, _⟩ => ⟨S2x512x12288, .f32⟩
  | _, _ => ⟨S2x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  shapeCasts_S32x4096_S2x16x4096 : S32x4096.ShapeCasts S2x16x4096
  shapeCasts_S8192x16_S2x4096x16 : S8192x16.ShapeCasts S2x4096x16
  bcast_S_S3x4096x4096 : S_.BroadcastsInDim S3x4096x4096 (![] : Fin 0 → Fin S3x4096x4096.rank)
  bcast_S_S2 : S_.BroadcastsInDim S2 (![] : Fin 0 → Fin S2.rank)
  bcast_S2_S2x1_0 : S2.BroadcastsInDim S2x1 (![0] : Fin 1 → Fin S2x1.rank)
  shapeCasts_S3x4096x4096_S12288x4096 : S3x4096x4096.ShapeCasts S12288x4096
  dot_S2x4096x16_S2x16x4096_S2x4096x4096_2_1_1_2_0_0_wf : DotDims.WF S2x4096x16 S2x16x4096 S2x4096x4096 [2] [1] [1] [2] [0] [0]
  scatter_S3x4096x4096_S2x1_S2x4096x4096_12_0_0_1_wf : ScatterDims.WF S3x4096x4096 S2x1 S2x4096x4096 [1, 2] [0] [0] 1
  dot_S2x512x4096_S12288x4096_S2x512x12288_2_1_01_0_n_n_wf : DotDims.WF S2x512x4096 S12288x4096 S2x512x12288 [2] [1] [0, 1] [0] [] []

variable [Facts₀]

def dot_S2x4096x16_S2x16x4096_S2x4096x4096_2_1_1_2_0_0 : DotDims S2x4096x16 S2x16x4096 S2x4096x4096 where
  lhsContracting := [2]
  rhsContracting := [1]
  lhsNonContracting := [1]
  rhsNonContracting := [2]
  lhsBatch := [0]
  rhsBatch := [0]
  wf := dot_S2x4096x16_S2x16x4096_S2x4096x4096_2_1_1_2_0_0_wf
def scatter_S3x4096x4096_S2x1_S2x4096x4096_12_0_0_1 : ScatterDims S3x4096x4096 S2x1 S2x4096x4096 where
  updateWindowDims := [1, 2]
  insertedWindowDims := [0]
  scatterDimsToOperandDims := [0]
  indexVectorDim := 1
  wf := scatter_S3x4096x4096_S2x1_S2x4096x4096_12_0_0_1_wf
def dot_S2x512x4096_S12288x4096_S2x512x12288_2_1_01_0_n_n : DotDims S2x512x4096 S12288x4096 S2x512x12288 where
  lhsContracting := [2]
  rhsContracting := [1]
  lhsNonContracting := [0, 1]
  rhsNonContracting := [0]
  lhsBatch := []
  rhsBatch := []
  wf := dot_S2x512x4096_S12288x4096_S2x512x12288_2_1_01_0_n_n_wf

class Facts : Prop extends Facts₀ where

variable [Facts]
-- ==== Proof.Spec.lean ====
/-
  The two forms of a merged low-rank linear map, as functions of the three argument arrays over the extended reals.

  The arguments: `x : [2, 512, 4096]`, `wA : [32, 4096]` (two stacked factors `A_g : [16, 4096]`, row `g·16 + r`),
  `wB : [8192, 16]` (two stacked factors `B_g : [4096, 16]`, row `g·4096 + o`). The result `[2, 512, 12288]` has three
  column blocks of width 4096: block 0 carries group 0, block 1 is zero, block 2 carries group 1.

  * the FACTORED form multiplies `x` by `A_g` transposed first and by `B_g` transposed second:
    `∑ r, (∑ i, x (b, s, i) · A_g (r, i)) · B_g (o, r)`;
  * the MERGED form first builds the full weight `W (n, i)` — `∑ r, B_g (o, r) · A_g (r, i)` on the two carrying blocks,
    zero on the middle one — and multiplies `x` by it: `∑ i, x (b, s, i) · W (n, i)`.

  Names no program.
-/
import Idealize.ShloMosaic.PureOps.Ideal
import Idealize.ShloMosaic.Lib.ValueIdx

noncomputable section

open scoped BigOperators

namespace Cert.LowRank

open Idealize.ShloMosaic Idealize.ShloMosaic.ValueIdx

/-- The argument and result shapes. -/
abbrev SX : Shape := ⟨3, ![2, 512, 4096]⟩
abbrev SA : Shape := ⟨2, ![32, 4096]⟩
abbrev SB : Shape := ⟨2, ![8192, 16]⟩
abbrev SO : Shape := ⟨3, ![2, 512, 12288]⟩

/-- Row `g·16 + r` of the stacked first factors: row `r` of `A_g`. -/
def rowA (g : Fin 2) (r : Fin 16) : Fin 32 := ⟨g.val * 16 + r.val, by omega⟩
/-- Row `g·4096 + o` of the stacked second factors: row `o` of `B_g`. -/
def rowB (g : Fin 2) (o : Fin 4096) : Fin 8192 := ⟨g.val * 4096 + o.val, by omega⟩

/-- Group `g`'s product, factored: `x` by `A_g` transposed, then by `B_g` transposed. -/
def factored (x : FVec Ideal SX .f32) (wA : FVec Ideal SA .f32) (wB : FVec Ideal SB .f32)
    (g : Fin 2) (b : Fin 2) (s : Fin 512) (o : Fin 4096) : EReal :=
  ∑ r : Fin 16, (∑ i : Fin 4096, x (ix3 b s i) * wA (ix2 (rowA g r) i)) * wB (ix2 (rowB g o) r)

/-- Entry `(o, i)` of group `g`'s merged weight `B_g · A_g`. -/
def delta (wA : FVec Ideal SA .f32) (wB : FVec Ideal SB .f32) (g : Fin 2) (o i : Fin 4096) : EReal :=
  ∑ r : Fin 16, wB (ix2 (rowB g o) r) * wA (ix2 (rowA g r) i)

/-- The full merged weight, by column block `q` of the result: groups 0 and 1 on blocks 0 and 2, zero on block 1. -/
def weight (wA : FVec Ideal SA .f32) (wB : FVec Ideal SB .f32) (q : Fin 3) (o i : Fin 4096) : EReal :=
  if q.val = 0 then delta wA wB 0 o i else if q.val = 2 then delta wA wB 1 o i else 0

/-- THE FACTORED RESULT: column `n` in block 0 or 2 is the factored product of group 0 or 1, in block 1 zero. -/
def factoredOut (x : FVec Ideal SX .f32) (wA : FVec Ideal SA .f32) (wB : FVec Ideal SB .f32) : FVec Ideal SO .f32 :=
  fun j =>
    if h0 : (j 2).val < 4096 then factored x wA wB 0 (j 0) (j 1) ⟨(j 2).val, h0⟩
    else if h1 : (j 2).val < 8192 then 0
    else factored x wA wB 1 (j 0) (j 1) ⟨(j 2).val - 8192, by have h : (j 2).val < 12288 := (j 2).isLt; omega⟩

/-- THE MERGED RESULT: `x` against the full merged weight's row `n = q·4096 + o`. -/
def mergedOut (x : FVec Ideal SX .f32) (wA : FVec Ideal SA .f32) (wB : FVec Ideal SB .f32) : FVec Ideal SO .f32 :=
  fun j =>
    ∑ i : Fin 4096, x (ix3 (j 0) (j 1) i)
      * weight wA wB ⟨(j 2).val / 4096, by have h : (j 2).val < 12288 := (j 2).isLt; omega⟩ ⟨(j 2).val % 4096, Nat.mod_lt _ (by decide)⟩ i

end Cert.LowRank

end
-- ==== Proof.KerHost.lean ====
/-
  The arrays the kernel's region finds, as functions of the three arguments, read at an index.

  Before the region the program flattens `x : [2, 512, 4096]` to rows `[1024, 4096]` (row `b·512 + s`), views the stacked
  first factors `[32, 4096]` by group as `[2, 16, 4096]`, and views the stacked second factors `[8192, 16]` by group as
  `[2, 4096, 16]` and swaps the last two axes to `[2, 16, 4096]`; the two changes of float format are the identity
  over the extended reals.
-/
import proofs.«131344_j58076547776655_2_alg».proof.Proof.Gen.KernelIdeal.Frame
import proofs.«131344_j58076547776655_2_alg».proof.Proof.Spec
import Idealize.ShloMosaic.Lib.Pipeline.Value
import Idealize.ShloMosaic.Lib.ValueIdx
import Idealize.ShloMosaic.Lib.StableHlo.Run

noncomputable section

namespace Cert.KernelIdeal.KerValue

open Cert.KernelIdeal Idealize.ShloMosaic Idealize.ShloMosaic.TcCoe Idealize.ShloMosaic.ValueIdx Idealize.SL.Sem
open Cert.LowRank (rowA rowB)

/-! ## The three layout chains at an index -/

/-- Row `b·512 + s` of the flattened `x` is row `(b, s)` of `x`. -/
theorem rows_apply (x : FVec Ideal S2x512x4096 .f32) (h : S2x512x4096.ShapeCasts S1024x4096) (b : Fin 2) (s : Fin 512)
    (row : Fin 1024) (hrow : row.val = b.val * 512 + s.val) (i : Fin 4096) :
    shapeCast S1024x4096 x h (ix2 row i) = x (ix3 b s i) := by
  refine shapeCast_apply x h (ix2 row i) (ix3 b s i) ?_
  rw [Shape.rowMajor_val_three, Shape.rowMajor_val_two]
  show (b.val * 512 + s.val) * 4096 + i.val = row.val * 4096 + i.val
  rw [hrow]

/-- Entry `(g, r, i)` of the first factors viewed by group is row `g·16 + r` of the stack. -/
theorem factorA_apply (wA : FVec Ideal S32x4096 .f32) (h : S32x4096.ShapeCasts S2x16x4096) (hb : FTy.bits .bf16 < FTy.bits .f32)
    (g : Fin 2) (r : Fin 16) (i : Fin 4096) :
    truncf .bf16 (shapeCast S2x16x4096 wA h) hb (ix3 g r i) = wA (ix2 (rowA g r) i) := by
  show shapeCast S2x16x4096 wA h (ix3 g r i) = wA (ix2 (rowA g r) i)
  refine shapeCast_apply wA h (ix3 g r i) (ix2 (rowA g r) i) ?_
  rw [Shape.rowMajor_val_three, Shape.rowMajor_val_two]
  show (g.val * 16 + r.val) * 4096 + i.val = (g.val * 16 + r.val) * 4096 + i.val
  rfl

/-- Entry `(g, r, o)` of the second factors viewed by group and transposed is entry `r` of row `g·4096 + o` of the stack. -/
theorem factorB_apply (wB : FVec Ideal S8192x16 .f32) (h : S8192x16.ShapeCasts S2x4096x16)
    (ht : S2x4096x16.Transposes [0, 2, 1] S2x16x4096) (hb : FTy.bits .bf16 < FTy.bits .f32)
    (g : Fin 2) (r : Fin 16) (o : Fin 4096) :
    truncf .bf16 (transpose S2x16x4096 [0, 2, 1] (shapeCast S2x4096x16 wB h) ht) hb (ix3 g r o) = wB (ix2 (rowB g o) r) := by
  show transpose S2x16x4096 [0, 2, 1] (shapeCast S2x4096x16 wB h) ht (ix3 g r o) = wB (ix2 (rowB g o) r)
  rw [transpose_apply [0, 2, 1] (shapeCast S2x4096x16 wB h) ht (ix3 g r o) (ix3 g o r)
    (fun b => by match b with | ⟨0, _⟩ => rfl | ⟨1, _⟩ => rfl | ⟨2, _⟩ => rfl)]
  refine shapeCast_apply wB h (ix3 g o r) (ix2 (rowB g o) r) ?_
  rw [Shape.rowMajor_val_three, Shape.rowMajor_val_two]
  show (g.val * 4096 + o.val) * 16 + r.val = (g.val * 4096 + o.val) * 16 + r.val
  rfl

/-! ## What the region finds -/

variable (m : (ℓ : Loc nD τ sig) → Buf (Elt Ideal) ℓ)

/-- The first window's array: `x` flattened to rows. -/
theorem found_rows (c : Dev nD) :
    (Gen.V m c main_v0 : S1024x4096.Idx → EReal)
      = shapeCast S1024x4096 (m ((c : Thread nD τ).loc main_arg0)) Facts₀.shapeCasts_S2x512x4096_S1024x4096 := by
  show StableHlo.after Gen.hostOps0 (fun b => m (c, b)) (Proc.devRef .tc main_v0) = _
  after_results
  rfl

/-- The second window's array: the first factors by group. -/
theorem found_factorA (c : Dev nD) :
    (Gen.V m c main_v2 : S2x16x4096.Idx → EReal)
      = (truncf (F := Ideal) .bf16 (shapeCast S2x16x4096 (m ((c : Thread nD τ).loc main_arg1)) Facts₀.shapeCasts_S32x4096_S2x16x4096)
          Facts₀.bitsLt_bf16_f32 : FVec Ideal S2x16x4096 .bf16) := by
  show StableHlo.after Gen.hostOps0 (fun b => m (c, b)) (Proc.devRef .tc main_v2) = _
  after_results
  rfl

/-- The third window's array: the second factors by group, transposed. -/
theorem found_factorB (c : Dev nD) :
    (Gen.V m c main_v5 : S2x16x4096.Idx → EReal)
      = (truncf (F := Ideal) .bf16 (transpose S2x16x4096 [0, 2, 1]
          (shapeCast S2x4096x16 (m ((c : Thread nD τ).loc main_arg2)) Facts₀.shapeCasts_S8192x16_S2x4096x16)
          Facts₀.transposes_S2x4096x16_S2x16x4096_0_2_1) Facts₀.bitsLt_bf16_f32 : FVec Ideal S2x16x4096 .bf16) := by
  show StableHlo.after Gen.hostOps0 (fun b => m (c, b)) (Proc.devRef .tc main_v5) = _
  after_results
  rfl

end Cert.KernelIdeal.KerValue

end
-- ==== Proof.LibDotT.lean ====
/- A matrix product against a transposed right operand, [R, K] × [C, K] → [R, C] (both operands contracted along their second
   axis), into a zero accumulator, read at an index over the extended reals: entry (p, q) is the sum over k of
   lhs(p, k) · rhs(q, k). For any dimension record with these lists. Names no program. -/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

namespace Cert.LibDotT

open Idealize.ShloMosaic Idealize.ShloMosaic.ValueIdx

/-- The dimension numbers of a `[R, K] × [C, K] → [R, C]` product: the second axis of each operand is contracted. -/
abbrev dotT (R K C : Nat)
    (wf : DotDims.WF ⟨2, ![R, K]⟩ ⟨2, ![C, K]⟩ ⟨2, ![R, C]⟩ [1] [1] [0] [0] [] []) :
    DotDims ⟨2, ![R, K]⟩ ⟨2, ![C, K]⟩ ⟨2, ![R, C]⟩ where
  lhsContracting := [1]
  rhsContracting := [1]
  lhsNonContracting := [0]
  rhsNonContracting := [0]
  lhsBatch := []
  rhsBatch := []
  wf := wf

section
variable {R K C : Nat} (wf : DotDims.WF ⟨2, ![R, K]⟩ ⟨2, ![C, K]⟩ ⟨2, ![R, C]⟩ [1] [1] [0] [0] [] [])

/-- The left operand's index for output `(p, q)` and contraction coordinate `k` is `(p, k)`. -/
theorem dotT_lhsIdx (p : Fin R) (q : Fin C) (k : Fin K) :
    (dotT R K C wf).lhsIdx (ix2 p q) ((contrEquiv1 (dotT R K C wf) K rfl rfl).symm k) = ix2 p k := by
  have hk := contrEquiv1_symm_val (dotT R K C wf) K rfl rfl k
  funext a
  refine Fin.ext ?_
  match a with
  | ⟨0, _⟩ =>
    show ((dotT R K C wf).lhsIdx (ix2 p q) ((contrEquiv1 (dotT R K C wf) K rfl rfl).symm k) 0).val = p.val
    unfold DotDims.lhsIdx
    rw [dif_neg (show ¬(0 : Fin 2) ∈ (dotT R K C wf).lhsBatch from List.not_mem_nil),
      dif_pos (show (0 : Fin 2) ∈ (dotT R K C wf).lhsNonContracting from List.mem_singleton.mpr rfl)]
    rfl
  | ⟨1, _⟩ =>
    exact ((dotT R K C wf).lhsIdx_val_of_single (cl := (1 : Fin 2)) rfl (ix2 p q) _).trans hk

/-- The right operand's index for output `(p, q)` and contraction coordinate `k` is `(q, k)`. -/
theorem dotT_rhsIdx (p : Fin R) (q : Fin C) (k : Fin K) :
    (dotT R K C wf).rhsIdx (ix2 p q) ((contrEquiv1 (dotT R K C wf) K rfl rfl).symm k) = ix2 q k := by
  have hk := contrEquiv1_symm_val (dotT R K C wf) K rfl rfl k
  funext a
  refine Fin.ext ?_
  match a with
  | ⟨0, _⟩ =>
    show ((dotT R K C wf).rhsIdx (ix2 p q) ((contrEquiv1 (dotT R K C wf) K rfl rfl).symm k) 0).val = q.val
    unfold DotDims.rhsIdx
    rw [dif_neg (show ¬(0 : Fin 2) ∈ (dotT R K C wf).rhsBatch from List.not_mem_nil),
      dif_pos (show (0 : Fin 2) ∈ (dotT R K C wf).rhsNonContracting from List.mem_singleton.mpr rfl)]
    rfl
  | ⟨1, _⟩ =>
    exact ((dotT R K C wf).rhsIdx_val_of_single (cr := (1 : Fin 2)) rfl (ix2 p q) _).trans hk

/-- THE PRODUCT AGAINST THE TRANSPOSE INTO A ZERO ACCUMULATOR AT `(p, q)`: the sum over `k` of `lhs (p, k) * rhs (q, k)`. -/
theorem matmulT_zero_apply {φ₁ φ₂ : FTy} (prec : Option ContractPrecision)
    (lhs : FVec Ideal ⟨2, ![R, K]⟩ φ₁) (rhs : FVec Ideal ⟨2, ![C, K]⟩ φ₂) (p : Fin R) (q : Fin C) :
    FloatOps.matmul (dotT R K C wf) prec lhs rhs (constant ⟨2, ![R, C]⟩ .f32 0x00000000#32) (ix2 p q)
      = ∑ k : Fin K, lhs (ix2 p k) * rhs (ix2 q k) := by
  rw [Ideal.matmul_constant_zero_apply, ← Equiv.sum_comp (contrEquiv1 (dotT R K C wf) K rfl rfl).symm]
  refine Finset.sum_congr rfl fun k _ => ?_
  rw [dotT_lhsIdx wf p q k, dotT_rhsIdx wf p q k]

end

end Cert.LibDotT

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.KerPayload.lean ====
/-
  The kernel body's arithmetic read at an index, over the extended reals.

  One grid point holds a block `x0 : [128, 4096]` of rows of `x` and the two stacked factor arrays `a, b : [2, 16, 4096]`
  (group, rank, feature). For a group's slabs `a_g, b_g : [1, 16, 4096]` the body forms `t = x0 · a_gᵀ : [128, 16]` and
  then `t · b_g : [128, 4096]`; a change of float format is the identity here, and each product into a zero accumulator
  is a plain sum. So entry `(p, q)` of the stored value is `∑ r, (∑ i, x0 (p, i) · a_g (r, i)) · b_g (r, q)`.
  The middle column block is a splat of zero.
-/
import proofs.«131344_j58076547776655_2_alg».proof.Proof.Gen.KernelIdeal.Skeleton
import proofs.«131344_j58076547776655_2_alg».proof.Proof.LibDotT
import proofs.«131344_j58076547776655_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.KerValue

open Cert.KernelIdeal Idealize.ShloMosaic Idealize.ShloMosaic.ValueIdx

/-- A `[1, 16, 4096]` slab viewed as a `[16, 4096]` matrix reads `(0, k, q)` at `(k, q)`. -/
theorem slab_apply (a : Vec Ideal S1x16x4096 .bf16) (h : S1x16x4096.ShapeCasts S16x4096) (k : Fin 16) (q : Fin 4096) :
    shapeCast S16x4096 a h (ix2 k q) = a (ix3 0 k q) := by
  refine shapeCast_apply a h (ix2 k q) (ix3 0 k q) ?_
  rw [Shape.rowMajor_val_three, Shape.rowMajor_val_two]
  show ((0 : Nat) * 16 + k.val) * 4096 + q.val = k.val * 4096 + q.val
  omega

/-- THE GROUP'S STORED VALUE AT `(p, q)`: the rows of `x0` against the slab `a` transposed, then against the slab `b`. -/
theorem pay_group_apply (x0 : Vec Ideal S128x4096 .f32) (a b : Vec Ideal S1x16x4096 .bf16) (p : Fin 128) (q : Fin 4096) :
    Gen.k0_pay2 (F := Ideal) x0 a b (ix2 p q)
      = ∑ r : Fin 16, (∑ i : Fin 4096, x0 (ix2 p i) * a (ix3 0 r i)) * b (ix3 0 r q) := by
  unfold Gen.k0_pay2 Gen.k0_pay1
  dsimp only
  refine (Cert.LibPlainDot.matmul_zero_apply (R := 128) (K := 16) (C := 4096) _ none _ _ p q).trans ?_
  refine Finset.sum_congr rfl fun r _ => ?_
  rw [slab_apply]
  refine congrArg (· * b (ix3 0 r q)) ?_
  refine (Cert.LibDotT.matmulT_zero_apply (R := 128) (K := 4096) (C := 16) _ none _ _ p r).trans ?_
  refine Finset.sum_congr rfl fun i _ => ?_
  rw [slab_apply]
  refine congrArg (· * a (ix3 0 r i)) ?_
  show shapeCast S128x4096 x0 _ (ix2 p i) = x0 (ix2 p i)
  rw [shapeCast_self]

/-- The second carrying block's stored value is the same function of its loads. -/
theorem pay_group_apply' (x0 : Vec Ideal S128x4096 .f32) (a b : Vec Ideal S1x16x4096 .bf16) (p : Fin 128) (q : Fin 4096) :
    Gen.k0_pay4 (F := Ideal) x0 a b (ix2 p q)
      = ∑ r : Fin 16, (∑ i : Fin 4096, x0 (ix2 p i) * a (ix3 0 r i)) * b (ix3 0 r q) :=
  pay_group_apply x0 a b p q

/-- The middle block's stored value is zero everywhere. -/
theorem pay_zero_apply (y : S128x4096.Idx) : Gen.k0_pay3 (F := Ideal) y = 0 := by
  unfold Gen.k0_pay3
  exact Ideal.ofBits_zero_f32

end Cert.KernelIdeal.KerValue

end
-- ==== Proof.KerBlock.lean ====
/-
  What one grid point leaves in its output block, read at an index.

  The block `[128, 12288]` is written by three stores, one per column block of width 4096: columns `[0, 4096)` carry
  group 0's product, columns `[4096, 8192)` zeros, columns `[8192, 12288)` group 1's product. The three column ranges
  are disjoint and fill the block, so the block at `(p, n)` is the value of the store whose range holds `n`, at the
  column's offset inside that range.
-/
import proofs.«131344_j58076547776655_2_alg».proof.Proof.Gen.KernelIdeal.Frame
import proofs.«131344_j58076547776655_2_alg».proof.Proof.KerPayload

noncomputable section

open scoped BigOperators

namespace Cert.KernelIdeal.KerValue

open Cert.KernelIdeal Idealize.ShloMosaic Idealize.ShloMosaic.ValueIdx

/-- An index of the block in column range `[off, off + 4096)` is the range's rectangle at `(p, n - off)`. -/
theorem emb_cols (off : Nat) (inb : ∀ a, (![0, off] : Fin 2 → Nat) a + S128x4096.size a ≤ S128x12288.size a)
    (p : Fin 128) (n : Fin 12288) (q : Fin 4096) (hq : n.val = off + q.val) :
    (Rect.unit (s := S128x12288) ![0, off] S128x4096.size inb).emb (ix2 p q) = ix2 p n := by
  funext a
  refine Fin.ext ?_
  match a with
  | ⟨0, _⟩ => show 0 + 1 * p.val = p.val; omega
  | ⟨1, _⟩ => show off + 1 * q.val = n.val; omega

/-- An index whose column is outside `[off, off + 4096)` is not in that range's rectangle. -/
theorem not_mem_cols (off : Nat) (inb : ∀ a, (![0, off] : Fin 2 → Nat) a + S128x4096.size a ≤ S128x12288.size a)
    (p : Fin 128) (n : Fin 12288) (hn : n.val < off ∨ off + 4096 ≤ n.val) :
    ix2 p n ∉ (Rect.unit (s := S128x12288) ![0, off] S128x4096.size inb).set := by
  rw [Rect.mem_set_unit]
  intro h
  have h1 := h (1 : Fin 2)
  have h1' : off ≤ n.val ∧ n.val < off + 4096 := h1
  omega

/-- A load of the whole `[128, 4096]` block of rows reads the block. -/
theorem ld_rows (x0 : Vec Ideal S128x4096 .f32) (inb : ∀ a, (![0, 0] : Fin 2 → Nat) a + S128x4096.size a ≤ S128x4096.size a)
    (p : Fin 128) (i : Fin 4096) :
    View.ld x0 (Rect.unit (s := S128x4096) ![0, 0] S128x4096.size inb) (ix2 p i) = x0 (ix2 p i) := by
  rw [View.ld_unit_zero (S := S128x4096) (funext fun a => by fin_cases a <;> rfl)]

/-- A load of group `g`'s slab `[1, 16, 4096]` of a stacked `[2, 16, 4096]` array reads `(g, r, i)` at `(0, r, i)`. -/
theorem ld_slab (x1 : Vec Ideal S2x16x4096 .bf16) (off : Fin 3 → Nat)
    (inb : ∀ a, off a + S1x16x4096.size a ≤ S2x16x4096.size a)
    (g : Fin 2) (h0 : off 0 = g.val) (h1 : off 1 = 0) (h2 : off 2 = 0) (r : Fin 16) (i : Fin 4096) :
    View.ld x1 (Rect.unit (s := S2x16x4096) off S1x16x4096.size inb) (ix3 0 r i) = x1 (ix3 g r i) := by
  show x1 ((Rect.unit (s := S2x16x4096) off S1x16x4096.size inb).emb (ix3 0 r i)) = _
  refine congrArg x1 (funext fun a => Fin.ext ?_)
  match a with
  | ⟨0, _⟩ => show off 0 + 1 * 0 = g.val; omega
  | ⟨1, _⟩ => show off 1 + 1 * r.val = r.val; omega
  | ⟨2, _⟩ => show off 2 + 1 * i.val = i.val; omega

/-- THREE COLUMN STORES READ AT `(p, n)`: the value of the store whose column range holds `n`, at the column's
    offset inside the range. -/
theorem canon_cols_apply (P5 P3 P2 : Vec Ideal S128x4096 .f32) (p : Fin 128) (n : Fin 12288) :
    View.canon [(⟨Gen.r0_5, P5⟩ : View.Piece (Elt Ideal) S128x12288 .f32), ⟨Gen.r0_3, P3⟩, ⟨Gen.r0_2, P2⟩] (ix2 p n)
      = if h0 : n.val < 4096 then P2 (ix2 p ⟨n.val, h0⟩)
        else if h1 : n.val < 8192 then P3 (ix2 p ⟨n.val - 4096, by omega⟩)
        else P5 (ix2 p ⟨n.val - 8192, by have := n.isLt; omega⟩) := by
  have hn : n.val < 12288 := n.isLt
  by_cases h0 : n.val < 4096
  · rw [dif_pos h0]
    refine (View.canon_cons_of_not_mem (⟨Gen.r0_5, P5⟩ : View.Piece (Elt Ideal) S128x12288 .f32) [⟨Gen.r0_3, P3⟩, ⟨Gen.r0_2, P2⟩]
      (not_mem_cols 8192 Facts₀.inb_S128x12288_S128x4096_0_8192 p n (Or.inl (by omega)))).trans ?_
    refine (View.canon_cons_of_not_mem (⟨Gen.r0_3, P3⟩ : View.Piece (Elt Ideal) S128x12288 .f32) [⟨Gen.r0_2, P2⟩]
      (not_mem_cols 4096 Facts₀.inb_S128x12288_S128x4096_0_4096 p n (Or.inl (by omega)))).trans ?_
    have e := emb_cols 0 Facts₀.inb_S128x12288_S128x4096_0_0 p n ⟨n.val, h0⟩ (by show n.val = 0 + n.val; omega)
    rw [← e]
    exact View.canon_cons_emb Gen.r0_2 P2 [] (ix2 p ⟨n.val, h0⟩)
  · rw [dif_neg h0]
    by_cases h1 : n.val < 8192
    · rw [dif_pos h1]
      refine (View.canon_cons_of_not_mem (⟨Gen.r0_5, P5⟩ : View.Piece (Elt Ideal) S128x12288 .f32) [⟨Gen.r0_3, P3⟩, ⟨Gen.r0_2, P2⟩]
        (not_mem_cols 8192 Facts₀.inb_S128x12288_S128x4096_0_8192 p n (Or.inl (by omega)))).trans ?_
      have e := emb_cols 4096 Facts₀.inb_S128x12288_S128x4096_0_4096 p n ⟨n.val - 4096, by omega⟩
        (by show n.val = 4096 + (n.val - 4096); omega)
      rw [← e]
      exact View.canon_cons_emb Gen.r0_3 P3 [⟨Gen.r0_2, P2⟩] (ix2 p ⟨n.val - 4096, by omega⟩)
    · rw [dif_neg h1]
      have e := emb_cols 8192 Facts₀.inb_S128x12288_S128x4096_0_8192 p n ⟨n.val - 8192, by omega⟩
        (by show n.val = 8192 + (n.val - 8192); omega)
      rw [← e]
      exact View.canon_cons_emb Gen.r0_5 P5 [⟨Gen.r0_3, P3⟩, ⟨Gen.r0_2, P2⟩] (ix2 p ⟨n.val - 8192, by omega⟩)

/-- THE BLOCK AT `(p, n)`, by the column block of `n`: group 0's product, zero, or group 1's product, of the rows
    `x0` of `x` and the slabs of the two stacked factor arrays `x1`, `x2 : [2, 16, 4096]`. -/
theorem block_apply (x0 : Vec Ideal S128x4096 .f32) (x1 x2 : Vec Ideal S2x16x4096 .bf16) (p : Fin 128) (n : Fin 12288) :
    Gen.out0_3 (F := Ideal) x0 x1 x2 (ix2 p n)
      = if h0 : n.val < 4096 then
          ∑ r : Fin 16, (∑ i : Fin 4096, x0 (ix2 p i) * x1 (ix3 0 r i)) * x2 (ix3 0 r ⟨n.val, h0⟩)
        else if h1 : n.val < 8192 then 0
        else ∑ r : Fin 16, (∑ i : Fin 4096, x0 (ix2 p i) * x1 (ix3 1 r i))
              * x2 (ix3 1 r ⟨n.val - 8192, by have := n.isLt; omega⟩) := by
  have hn : n.val < 12288 := n.isLt
  unfold Gen.out0_3
  refine (canon_cols_apply _ _ _ p n).trans ?_
  by_cases h0 : n.val < 4096
  · rw [dif_pos h0, dif_pos h0, pay_group_apply]
    refine Finset.sum_congr rfl fun r _ => ?_
    exact congrArg₂ (· * ·)
      (Finset.sum_congr rfl fun i _ => congrArg₂ (· * ·) (ld_rows x0 _ p i)
        (ld_slab x1 _ Facts₀.inb_S2x16x4096_S1x16x4096_0_0_0 0 rfl rfl rfl r i))
      (ld_slab x2 _ Facts₀.inb_S2x16x4096_S1x16x4096_0_0_0 0 rfl rfl rfl r _)
  · rw [dif_neg h0, dif_neg h0]
    by_cases h1 : n.val < 8192
    · rw [dif_pos h1, dif_pos h1, pay_zero_apply]
    · rw [dif_neg h1, dif_neg h1, pay_group_apply']
      refine Finset.sum_congr rfl fun r _ => ?_
      exact congrArg₂ (· * ·)
        (Finset.sum_congr rfl fun i _ => congrArg₂ (· * ·) (ld_rows x0 _ p i)
          (ld_slab x1 _ Facts₀.inb_S2x16x4096_S1x16x4096_1_0_0 1 rfl rfl rfl r i))
        (ld_slab x2 _ Facts₀.inb_S2x16x4096_S1x16x4096_1_0_0 1 rfl rfl rfl r _)

end Cert.KernelIdeal.KerValue

end
-- ==== Proof.KerValue.lean ====
/-
  The kernel program's result as a function of its three arguments: the factored form.

  Grid point `t` (of 8) stages rows `[128·t, 128·t + 128)` of the flattened `x` and both whole factor arrays, and
  writes back rows `[128·t, 128·t + 128)` of the `[1024, 12288]` output. Its block at `(p, n)` is, by the column block
  of `n`, group 0's or group 1's factored product of row `128·t + p = b·512 + s` of `x`, or zero: block `t` of ONE
  function of the arguments. The eight blocks fill the output, and the program's last operation views the
  `[1024, 12288]` rows as `[2, 512, 12288]`.
-/
import proofs.«131344_j58076547776655_2_alg».proof.Proof.Gen.KernelIdeal.Frame
import proofs.«131344_j58076547776655_2_alg».proof.Proof.KerHost
import proofs.«131344_j58076547776655_2_alg».proof.Proof.KerBlock
import proofs.«131344_j58076547776655_2_alg».proof.Proof.Spec
import Idealize.ShloMosaic.Lib.Pipeline.Value
import Idealize.ShloMosaic.Lib.StableHlo.Run

noncomputable section

open scoped BigOperators

namespace Cert.KernelIdeal.KerValue

open Cert.KernelIdeal Cert.KernelIdeal.Gen Idealize.ShloMosaic Idealize.ShloMosaic.TcCoe Idealize.ShloMosaic.ValueIdx Idealize.SL.Sem
open Idealize.ShloMosaic.Pipeline (Dat)
open Cert.LowRank (rowA rowB factored factoredOut)

/-- The `[1024, 12288]` output of the region: row `b·512 + s` is row `(b, s)` of the factored result. -/
def outRows (x : FVec Ideal S2x512x4096 .f32) (wA : FVec Ideal S32x4096 .f32) (wB : FVec Ideal S8192x16 .f32) :
    S1024x12288.Idx → EReal := fun i =>
  factoredOut x wA wB (ix3 ⟨(i 0).val / 512, by have h : (i 0).val < 1024 := (i 0).isLt; omega⟩
    ⟨(i 0).val % 512, Nat.mod_lt _ (by decide)⟩ ⟨(i 1).val, (i 1).isLt⟩)

/-- ONE POINT'S BLOCK: if the point's loads are rows `[128·t, 128·t + 128)` of the flattened `x` and the two factor
    arrays by group, its block at `(p, n)` is the factored result at row `128·t + p`, column `n`. -/
theorem point_apply (x : FVec Ideal S2x512x4096 .f32) (wA : FVec Ideal S32x4096 .f32) (wB : FVec Ideal S8192x16 .f32)
    (x0 : Vec Ideal S128x4096 .f32) (x1 x2 : Vec Ideal S2x16x4096 .bf16) (b : Fin 2) (s : Fin 512)
    (p : Fin 128) (n : Fin 12288)
    (h0 : ∀ i : Fin 4096, x0 (ix2 p i) = x (ix3 b s i))
    (h1 : ∀ (g : Fin 2) (r : Fin 16) (i : Fin 4096), x1 (ix3 g r i) = wA (ix2 (rowA g r) i))
    (h2 : ∀ (g : Fin 2) (r : Fin 16) (o : Fin 4096), x2 (ix3 g r o) = wB (ix2 (rowB g o) r)) :
    out0_3 (F := Ideal) x0 x1 x2 (ix2 p n) = factoredOut x wA wB (ix3 b s n) := by
  have hn : n.val < 12288 := n.isLt
  rw [block_apply]
  show _ = (if h0 : n.val < 4096 then factored x wA wB 0 b s ⟨n.val, h0⟩
    else if h1 : n.val < 8192 then 0
    else factored x wA wB 1 b s ⟨n.val - 8192, by omega⟩)
  unfold factored
  simp only [h0, h1, h2]

/-! ## The index maps, decided over the eight points -/

/-- The row windows (input 0, output 3) sit at block `t` on the row axis and at 0 on the column axis; the two factor
    windows always at their one block. -/
theorem idx_facts : ∀ t : Fin cfg0.N,
    win0_0.index t (0 : Fin 2) = t.val ∧ win0_0.index t (1 : Fin 2) = 0
    ∧ win0_3.index t (0 : Fin 2) = t.val ∧ win0_3.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ t.val < 8 :=
  (by decide +kernel : ∀ t : Fin grid0.N, _)

/-- Every row block is some point's. -/
theorem idx_onto : ∀ q : Fin 8, ∃ t : Fin cfg0.N, win0_3.index t = ![q.val, 0] :=
  (by decide +kernel : ∀ q : Fin 8, ∃ t : Fin grid0.N, win0_3.index t = ![q.val, 0])

variable (m : (ℓ : Loc nD τ sig) → Buf (Elt Ideal) ℓ) (ρ : Dev nD → PrngReg)

/-! ## What a point writes back -/

/-- WHAT POINT `t` WRITES BACK is block `t` of the rows of the factored result of the arguments. -/
theorem flushed_eq (c : Dev nD) (t : Fin cfg0.N) :
    (dats m 0 c).flushed 3 t = ((cfg0.win 3).blk t).view.read (Elt Ideal)
      (outRows (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  obtain ⟨e00, e01, e30, e31, e10, e11, e12, e20, e21, e22, ht⟩ := idx_facts t
  funext y
  obtain ⟨p, n, rfl⟩ : ∃ (p : Fin 128) (n : Fin 12288), y = ix2 p n := ⟨y 0, y 1, eq_ix2 y⟩
  have hp : p.val < 128 := p.isLt
  show out0_3 (iblk m c 0 t) (iblk m c 1 t) (iblk m c 2 t) (ix2 p n)
    = outRows _ _ _ (((cfg0.win 3).blk t).view.emb (ix2 p n))
  refine (point_apply (m ((c : Thread nD τ).loc main_arg0)) (m ((c : Thread nD τ).loc main_arg1)) (m ((c : Thread nD τ).loc main_arg2))
    (iblk m c 0 t) (iblk m c 1 t) (iblk m c 2 t)
    ⟨(t.val * 128 + p.val) / 512, by omega⟩ ⟨(t.val * 128 + p.val) % 512, Nat.mod_lt _ (by decide)⟩ p n ?_ ?_ ?_).trans ?_
  · intro i
    show V m c main_v0 (((cfg0.win 0).blk t).view.emb (ix2 p i)) = _
    rw [found_rows]
    have hemb : ((cfg0.win 0).blk t).view.emb (ix2 p i) = ix2 (⟨t.val * 128 + p.val, by omega⟩ : Fin 1024) i := by
      funext a; refine Fin.ext ?_
      match a with
      | ⟨0, _⟩ => show win0_0.index t (0 : Fin 2) * 128 + 1 * p.val = t.val * 128 + p.val; omega
      | ⟨1, _⟩ => show win0_0.index t (1 : Fin 2) * 4096 + 1 * i.val = i.val; omega
    rw [hemb]
    refine rows_apply _ _ _ _ _ ?_ i
    show t.val * 128 + p.val = (t.val * 128 + p.val) / 512 * 512 + (t.val * 128 + p.val) % 512
    omega
  · intro g r i
    show V m c main_v2 (((cfg0.win 1).blk t).view.emb (ix3 g r i)) = _
    rw [found_factorA]
    have hemb : ((cfg0.win 1).blk t).view.emb (ix3 g r i) = ix3 g r i := by
      funext a; refine Fin.ext ?_
      match a with
      | ⟨0, _⟩ => show win0_1.index t (0 : Fin 3) * 2 + 1 * g.val = g.val; omega
      | ⟨1, _⟩ => show win0_1.index t (1 : Fin 3) * 16 + 1 * r.val = r.val; omega
      | ⟨2, _⟩ => show win0_1.index t (2 : Fin 3) * 4096 + 1 * i.val = i.val; omega
    rw [hemb]
    exact factorA_apply _ _ _ g r i
  · intro g r o
    show V m c main_v5 (((cfg0.win 2).blk t).view.emb (ix3 g r o)) = _
    rw [found_factorB]
    have hemb : ((cfg0.win 2).blk t).view.emb (ix3 g r o) = ix3 g r o := by
      funext a; refine Fin.ext ?_
      match a with
      | ⟨0, _⟩ => show win0_2.index t (0 : Fin 3) * 2 + 1 * g.val = g.val; omega
      | ⟨1, _⟩ => show win0_2.index t (1 : Fin 3) * 16 + 1 * r.val = r.val; omega
      | ⟨2, _⟩ => show win0_2.index t (2 : Fin 3) * 4096 + 1 * o.val = o.val; omega
    rw [hemb]
    exact factorB_apply _ _ _ _ g r o
  · have hemb : ((cfg0.win 3).blk t).view.emb (ix2 p n) = ix2 (⟨t.val * 128 + p.val, by omega⟩ : Fin 1024) n := by
      funext a; refine Fin.ext ?_
      match a with
      | ⟨0, _⟩ => show win0_3.index t (0 : Fin 2) * 128 + 1 * p.val = t.val * 128 + p.val; omega
      | ⟨1, _⟩ => show win0_3.index t (1 : Fin 2) * 12288 + 1 * n.val = n.val; omega
    rw [hemb]
    rfl

/-! ## The blocks fill the output -/

/-- An index of the output is in point `t`'s block iff each coordinate is in the block's range on its axis. -/
theorem mem_blk (t : Fin cfg0.N) (i : S1024x12288.Idx) :
    i ∈ ((cfg0.win 3).blk t).view.set ↔ ∀ a : Fin 2, win0_3.index t a * S128x12288.size a ≤ (i a).val
      ∧ (i a).val < win0_3.index t a * S128x12288.size a + S128x12288.size a := by
  show i ∈ ((View.whole main_v6).slice (win0_3.rect t)).set ↔ _
  rw [View.set_slice_whole, Rect.mem_set_unit]
  exact Iff.rfl

/-- Row `i` is in the block of the point at row block `i / 128`. -/
theorem cover (i : S1024x12288.Idx) :
    ∃ t : Fin cfg0.N, (cfg0.win 3).flush t = true ∧ i ∈ ((cfg0.win 3).blk t).view.set := by
  have hi0 : (i 0).val < 1024 := (i 0).isLt
  have hi1 : (i 1).val < 12288 := (i 1).isLt
  obtain ⟨t, ht⟩ := idx_onto ⟨(i 0).val / 128, by omega⟩
  have q0 : win0_3.index t (0 : Fin 2) = (i 0).val / 128 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 128 ≤ (i 0).val ∧ (i 0).val < win0_3.index t (0 : Fin 2) * 128 + 128
    omega
  | ⟨1, _⟩ =>
    show win0_3.index t (1 : Fin 2) * 12288 ≤ (i 1).val ∧ (i 1).val < win0_3.index t (1 : Fin 2) * 12288 + 12288
    omega

/-- THE OUTPUT ARRAY after the region: the rows of the factored result of the arguments. -/
theorem final (c : Dev nD) :
    (dats m 0 c).arrAt 3 cfg0.N
      = outRows (m ((c : Thread nD τ).loc main_arg0)) (m ((c : Thread nD τ).loc main_arg1)) (m ((c : Thread nD τ).loc main_arg2)) :=
  (dats m 0 c).arrAt_eq_of_cover 3 _ (fun t _ => flushed_eq m c t) cover

/-! ## The operation after the region, and the run -/

/-- The rows `[1024, 12288]` viewed as `[2, 512, 12288]`: entry `(b, s, n)` is row `b·512 + s`. -/
theorem rows_view_apply (x : FVec Ideal S2x512x4096 .f32) (wA : FVec Ideal S32x4096 .f32) (wB : FVec Ideal S8192x16 .f32)
    (h : S1024x12288.ShapeCasts S2x512x12288) :
    shapeCast S2x512x12288 (outRows x wA wB) h = factoredOut x wA wB := by
  funext j
  obtain ⟨b, s, n, rfl⟩ : ∃ (b : Fin 2) (s : Fin 512) (n : Fin 12288), j = ix3 b s n := ⟨j 0, j 1, j 2, eq_ix3 j⟩
  have hb : b.val < 2 := b.isLt
  have hs : s.val < 512 := s.isLt
  refine (shapeCast_apply (outRows x wA wB) h (ix3 b s n) (ix2 (⟨b.val * 512 + s.val, by omega⟩ : Fin 1024) n) ?_).trans ?_
  · rw [Shape.rowMajor_val_three, Shape.rowMajor_val_two]
    rfl
  · show factoredOut x wA wB (ix3 ⟨(b.val * 512 + s.val) / 512, _⟩ ⟨(b.val * 512 + s.val) % 512, _⟩ ⟨n.val, _⟩) = _
    have e0 : (⟨(b.val * 512 + s.val) / 512, by omega⟩ : Fin 2) = b := Fin.ext (by show (b.val * 512 + s.val) / 512 = b.val; omega)
    have e1 : (⟨(b.val * 512 + s.val) % 512, Nat.mod_lt _ (by decide)⟩ : Fin 512) = s :=
      Fin.ext (by show (b.val * 512 + s.val) % 512 = s.val; omega)
    rw [e0, e1]

/-- The program's result after the operation that follows the region: the factored result of the arguments. -/
theorem tail_eq (c : Dev nD) :
    Pipeline.afterTail₀ cfgs (dats m) 0 (V0 m) [hostOps1] c main_v7
      = factoredOut (m ((c : Thread nD τ).loc main_arg0)) (m ((c : Thread nD τ).loc main_arg1)) (m ((c : Thread nD τ).loc main_arg2)) := by
  unfold Pipeline.afterTail₀
  show StableHlo.after hostOps1 _ (Proc.devRef .tc main_v7) = _
  after_results
  rw [show Pipeline.withArrays spec0 c (V0 m c) (fun w => (dats m 0 c).arrAt w cfg0.N) (Proc.devRef .tc main_v6)
      = (dats m 0 c).arrAt 3 cfg0.N from Pipeline.withArrays_arr spec0 launch0.win.arr_inj c _ _ 3, final m c]
  exact rows_view_apply _ _ _ _

/-- THE KERNEL PROGRAM'S RUN: every weakly fair execution terminates with the result at the factored form of the
    arguments, and the arguments unchanged. -/
theorem run : θ_run (defs (F := Ideal)) (onTc (τ := τ) (main (F := Ideal))) ⟨m, fun _ => 0, ρ⟩ fun r => ∀ c : Dev nD,
      r.2.mem ((c.tc : Thread nD τ).loc main_v7)
        = factoredOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.KerValue

end
-- ==== Proof.RefTerm.lean ====
/-
  The reference program's operations composed into one term of the three argument arrays: the two stacked factors
  viewed by group, their batched product `B_g · A_g`, the two products written into rows 0 and 2 of a zero
  `[3, 4096, 4096]` array at the literal start rows `[0, 2]` (each start first wrapped if negative), the array
  flattened to `[12288, 4096]`, and `x` contracted against it along the input axis.
-/
import proofs.«131344_j58076547776655_2_alg».proof.Proof.Gen.ReferenceIdeal

noncomputable section

namespace Cert.ReferenceIdeal.RefValue

open Cert.ReferenceIdeal Idealize.ShloMosaic
open Cert.ReferenceIdeal.Facts₀

variable {F : FTy → Type} [FloatOps F]

/-- The start rows of the two written slabs, as the program computes them: the literal `[0, 2]`, a negative entry
    wrapped by the extent 3, as a `[2, 1]` table. -/
def starts : IVec S2x1 32 :=
  let c : IVec S2 32 := fun i => lit0 (S2.rowMajor i)
  let v4 : IVec S2 32 := broadcastInDim S2 ![] bcast_S_S2 (constantI S_ 32 0#32)
  let v5 : IVec S2 1 := cmpi .slt c v4
  let v6 : IVec S2 32 := broadcastInDim S2 ![] bcast_S_S2 (constantI S_ 32 3#32)
  let v7 : IVec S2 32 := addi c v6
  let v8 : IVec S2 32 := select v5 v7 c
  broadcastInDim S2x1 ![0] bcast_S2_S2x1_0 v8

/-- The two merged weights `B_g · A_g`, batched over the group. -/
def deltas (wA : FVec F S32x4096 .f32) (wB : FVec F S8192x16 .f32) : FVec F S2x4096x4096 .f32 :=
  Host.dotGeneral dot_S2x4096x16_S2x16x4096_S2x4096x4096_2_1_1_2_0_0 none
    (shapeCast S2x4096x16 wB shapeCasts_S8192x16_S2x4096x16) (shapeCast S2x16x4096 wA shapeCasts_S32x4096_S2x16x4096)

/-- The full merged weight by block: the two merged weights written at the start rows into zeros. -/
def blocks (upd : FVec F S2x4096x4096 .f32) : FVec F S3x4096x4096 .f32 :=
  Host.scatter scatter_S3x4096x4096_S2x1_S2x4096x4096_12_0_0_1 (fun _ b => b)
    (broadcastInDim S3x4096x4096 ![] bcast_S_S3x4096x4096 (constant S_ .f32 0x00000000#32)) starts upd

/-- The reference's result as one term of its arguments. -/
def refTerm (x : FVec F S2x512x4096 .f32) (wA : FVec F S32x4096 .f32) (wB : FVec F S8192x16 .f32) :
    FVec F S2x512x12288 .f32 :=
  Host.dotGeneral dot_S2x512x4096_S12288x4096_S2x512x12288_2_1_01_0_n_n none x
    (shapeCast S12288x4096 (blocks (deltas wA wB)) shapeCasts_S3x4096x4096_S12288x4096)

end Cert.ReferenceIdeal.RefValue

end
-- ==== Proof.RefRun.lean ====
/-
  The reference program's run. Its @main is a straight line of 17 host operations on tensor values: the literal
  start rows `[0, 2]`, the two stacked factors viewed by group, their batched product `B_g · A_g`, a zero
  `[3, 4096, 4096]` array, the start rows wrapped if negative and laid out as a `[2, 1]` table, the two products
  written into the zero array at those rows, the array flattened to `[12288, 4096]`, and `x` contracted against it.
  Listed in order, the operations fold to one pure term of the three arguments: from any memory with zero counters
  every weakly fair execution terminates with the result buffer holding that term (`refTerm`) of the arguments'
  launch contents, and the three arguments unchanged.
-/
import proofs.«131344_j58076547776655_2_alg».proof.Proof.RefTerm
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable {F : FTy → Type} [FloatOps F]

/-- @main's 17 operations, in order. -/
abbrev ops : List (HloOp τ sig (Elt F)) :=
  [ nullary main_c (fun i => lit0 (S2.rowMajor i)),
    reshape main_arg1 main_v0 rfl shapeCasts_S32x4096_S2x16x4096,
    reshape main_arg2 main_v1 rfl shapeCasts_S8192x16_S2x4096x16,
    binary main_v1 main_v0 main_v2 ((fun l r => Host.dotGeneral dot_S2x4096x16_S2x16x4096_S2x4096x4096_2_1_1_2_0_0 none l r) : (⟨S2x4096x16, .f32⟩ : BufTy).Contents (Elt F) → (⟨S2x16x4096, .f32⟩ : BufTy).Contents (Elt F) → (⟨S2x4096x4096, .f32⟩ : BufTy).Contents (Elt F)),
    nullary main_cst (constant S_ .f32 0x00000000#32),
    unary main_cst main_v3 (broadcastInDim S3x4096x4096 ![] bcast_S_S3x4096x4096 : (⟨S_, .f32⟩ : BufTy).Contents (Elt F) → (⟨S3x4096x4096, .f32⟩ : BufTy).Contents (Elt F)),
    nullary main_c_0 (constantI S_ 32 0#32),
    unary main_c_0 main_v4 (broadcastInDim S2 ![] bcast_S_S2 : (⟨S_, .i32⟩ : BufTy).Contents (Elt F) → (⟨S2, .i32⟩ : BufTy).Contents (Elt F)),
    binary main_c main_v4 main_v5 (cmpi .slt : (⟨S2, .i32⟩ : BufTy).Contents (Elt F) → (⟨S2, .i32⟩ : BufTy).Contents (Elt F) → (⟨S2, .i1⟩ : BufTy).Contents (Elt F)),
    nullary main_c_1 (constantI S_ 32 3#32),
    unary main_c_1 main_v6 (broadcastInDim S2 ![] bcast_S_S2 : (⟨S_, .i32⟩ : BufTy).Contents (Elt F) → (⟨S2, .i32⟩ : BufTy).Contents (Elt F)),
    binary main_c main_v6 main_v7 (addi : (⟨S2, .i32⟩ : BufTy).Contents (Elt F) → (⟨S2, .i32⟩ : BufTy).Contents (Elt F) → (⟨S2, .i32⟩ : BufTy).Contents (Elt F)),
    ternary main_v5 main_v7 main_c main_v8 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v8 main_v9 (broadcastInDim S2x1 ![0] bcast_S2_S2x1_0 : (⟨S2, .i32⟩ : BufTy).Contents (Elt F) → (⟨S2x1, .i32⟩ : BufTy).Contents (Elt F)),
    ternary main_v3 main_v9 main_v2 main_v10 ((fun x i u => Host.scatter scatter_S3x4096x4096_S2x1_S2x4096x4096_12_0_0_1 (fun _ b => b) x i u) : (⟨S3x4096x4096, .f32⟩ : BufTy).Contents (Elt F) → (⟨S2x1, .i32⟩ : BufTy).Contents (Elt F) → (⟨S2x4096x4096, .f32⟩ : BufTy).Contents (Elt F) → (⟨S3x4096x4096, .f32⟩ : BufTy).Contents (Elt F)),
    reshape main_v10 main_v11 rfl shapeCasts_S3x4096x4096_S12288x4096,
    binary main_arg0 main_v11 main_v12 ((fun l r => Host.dotGeneral dot_S2x512x4096_S12288x4096_S2x512x12288_2_1_01_0_n_n none l r) : (⟨S2x512x4096, .f32⟩ : BufTy).Contents (Elt F) → (⟨S12288x4096, .f32⟩ : BufTy).Contents (Elt F) → (⟨S2x512x12288, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., reshape_bufs_sub .., reshape_bufs_sub .., binary_bufs_sub .., nullary_bufs_sub .., unary_bufs_sub ..,
   nullary_bufs_sub .., unary_bufs_sub .., binary_bufs_sub .., nullary_bufs_sub .., unary_bufs_sub .., binary_bufs_sub ..,
   ternary_bufs_sub .., unary_bufs_sub .., ternary_bufs_sub .., reshape_bufs_sub .., binary_bufs_sub ..⟩

/-- On every device, for any float values, from any memory with zero counters: every weakly fair execution of
    @main terminates with the result at the operations' composed term of the arguments and the arguments
    unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12) = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v12).trans (by after_results; rfl),
      (h c main_arg0).trans (by after_results),
      (h c main_arg1).trans (by after_results),
      (h c main_arg2).trans (by after_results)⟩)
    (run_seq scopedRefs_eq scopedSems_eq defs main (fun _ => ops) main_eq (fun _ => ops_sub) m ρ)

end Cert.ReferenceIdeal.RefValue

end
-- ==== Proof.RefScatter.lean ====
/-
  A scatter that writes whole slabs, read at one index.

  The scatter is a left fold over the update indices in row-major order; each step overwrites the one element of the
  result its update index lands at, or leaves the array alone when the landing index is outside. Read at one result
  index `i`: if no update index lands at `i` the fold leaves the operand's element, and if the update indices landing at
  `i` are all one index `j` and it occurs in the list, the fold leaves the update's element at `j` (a later step never
  touches `i` again except by the same `j`). Both by induction on the list, the accumulator general; nothing is evaluated.

  For the record at hand (update window axes 1 and 2, inserted axis 0, one start component for axis 0) update index
  `(g, o, i)` lands at `(start g, o, i)`, with the start table `[[0], [2]]`: so block 0 of the result is slab 0 of the
  update, block 2 is slab 1, and block 1 keeps the zero operand.
-/
import proofs.«131344_j58076547776655_2_alg».proof.Proof.RefTerm
import Idealize.ShloMosaic.PureOps.Ideal
import Idealize.ShloMosaic.PureOps.Ideal.Laws
import Idealize.ShloMosaic.Lib.ValueIdx

noncomputable section

namespace Cert.ReferenceIdeal.RefValue

open Cert.ReferenceIdeal Idealize.ShloMosaic Idealize.ShloMosaic.ValueIdx
open Cert.ReferenceIdeal.Facts₀

/-! ## The fold read at an index -/

section Fold
variable {α : Type} {s si u : Shape} {w : Nat}

/-- One step of the scatter whose body returns the update: update index number `n` (row-major) overwrites the element
    it lands at, when it lands inside. -/
def scatterStep (d : ScatterDims s si u) (idx : IVec si w) (upd : u.Idx → α) (r : s.Idx → α) (n : Fin u.numel) : s.Idx → α :=
  match d.resultIdx? (u.rowMajor.symm n) idx with
  | some i => fun i' => if i' = i then (fun _ b => b) (r i) (upd (u.rowMajor.symm n)) else r i'
  | none => r

/-- The scatter is the fold of that step. -/
theorem scatter_eq_foldl (d : ScatterDims s si u) (x : s.Idx → α) (idx : IVec si w) (upd : u.Idx → α) :
    Host.scatter d (fun _ b => b) x idx upd = (List.finRange u.numel).foldl (scatterStep d idx upd) x := rfl

/-- A step whose update index lands at `i0` writes there and nowhere else. -/
theorem scatterStep_some (d : ScatterDims s si u) (idx : IVec si w) (upd : u.Idx → α) (r : s.Idx → α) (n : Fin u.numel)
    (i0 : s.Idx) (h : d.resultIdx? (u.rowMajor.symm n) idx = some i0) (i : s.Idx) :
    scatterStep d idx upd r n i = if i = i0 then upd (u.rowMajor.symm n) else r i := by
  unfold scatterStep; rw [h]

/-- A step whose update index lands outside changes nothing. -/
theorem scatterStep_none (d : ScatterDims s si u) (idx : IVec si w) (upd : u.Idx → α) (r : s.Idx → α) (n : Fin u.numel)
    (h : d.resultIdx? (u.rowMajor.symm n) idx = none) : scatterStep d idx upd r n = r := by
  unfold scatterStep; rw [h]

/-- A step none of whose landing index is `i` leaves the element at `i`. -/
theorem scatterStep_miss (d : ScatterDims s si u) (idx : IVec si w) (upd : u.Idx → α) (r : s.Idx → α) (n : Fin u.numel)
    (i : s.Idx) (h : d.resultIdx? (u.rowMajor.symm n) idx ≠ some i) : scatterStep d idx upd r n i = r i := by
  cases hr : d.resultIdx? (u.rowMajor.symm n) idx with
  | none => rw [scatterStep_none d idx upd r n hr]
  | some i0 =>
    rw [scatterStep_some d idx upd r n i0 hr, if_neg]
    intro hi; exact h (by rw [hr, hi])

/-- Where no update index of the list lands at `i`, the fold leaves the starting array's element. -/
theorem foldl_scatterStep_miss (d : ScatterDims s si u) (idx : IVec si w) (upd : u.Idx → α) (i : s.Idx)
    (l : List (Fin u.numel)) (r : s.Idx → α) (h : ∀ n ∈ l, d.resultIdx? (u.rowMajor.symm n) idx ≠ some i) :
    l.foldl (scatterStep d idx upd) r i = r i := by
  induction l generalizing r with
  | nil => rfl
  | cons n l ih =>
    rw [List.foldl_cons, ih _ (fun m hm => h m (List.mem_cons_of_mem _ hm)),
      scatterStep_miss d idx upd r n i (h n List.mem_cons_self)]

/-- Where the update indices landing at `i` are all `j`, and one of the list does, the fold leaves the update's element at `j`. -/
theorem foldl_scatterStep_hit (d : ScatterDims s si u) (idx : IVec si w) (upd : u.Idx → α) (i : s.Idx) (j : u.Idx)
    (huniq : ∀ j', d.resultIdx? j' idx = some i → j' = j)
    (l : List (Fin u.numel)) (r : s.Idx → α) (h : ∃ n ∈ l, d.resultIdx? (u.rowMajor.symm n) idx = some i) :
    l.foldl (scatterStep d idx upd) r i = upd j := by
  induction l generalizing r with
  | nil => obtain ⟨n, hn, _⟩ := h; cases hn
  | cons n l ih =>
    rw [List.foldl_cons]
    by_cases ht : ∃ m ∈ l, d.resultIdx? (u.rowMajor.symm m) idx = some i
    · exact ih _ ht
    · have hmiss : ∀ m ∈ l, d.resultIdx? (u.rowMajor.symm m) idx ≠ some i := fun m hm hh => ht ⟨m, hm, hh⟩
      rw [foldl_scatterStep_miss d idx upd i l _ hmiss]
      obtain ⟨m, hm, hh⟩ := h
      rcases List.mem_cons.1 hm with rfl | hm'
      · rw [scatterStep_some d idx upd r m i hh, if_pos rfl, huniq _ hh]
      · exact absurd hh (hmiss m hm')

/-- THE SCATTER AT AN INDEX NO UPDATE LANDS AT: the operand's element. -/
theorem scatter_apply_miss (d : ScatterDims s si u) (x : s.Idx → α) (idx : IVec si w) (upd : u.Idx → α) (i : s.Idx)
    (h : ∀ j, d.resultIdx? j idx ≠ some i) : Host.scatter d (fun _ b => b) x idx upd i = x i := by
  rw [scatter_eq_foldl]
  exact foldl_scatterStep_miss d idx upd i _ x (fun n _ => h _)

/-- THE SCATTER AT AN INDEX EXACTLY ONE UPDATE INDEX LANDS AT: the update's element there. -/
theorem scatter_apply_hit (d : ScatterDims s si u) (x : s.Idx → α) (idx : IVec si w) (upd : u.Idx → α) (i : s.Idx) (j : u.Idx)
    (hj : d.resultIdx? j idx = some i) (huniq : ∀ j', d.resultIdx? j' idx = some i → j' = j) :
    Host.scatter d (fun _ b => b) x idx upd i = upd j := by
  rw [scatter_eq_foldl]
  refine foldl_scatterStep_hit d idx upd i j huniq _ x ⟨u.rowMajor j, List.mem_finRange _, ?_⟩
  rw [Equiv.symm_apply_apply]; exact hj

end Fold

section Landing
variable {s si u : Shape} {w : Nat}

/-- Update index `j` lands at `i` exactly when start plus window coordinate is `i`'s coordinate on every axis. -/
theorem resultIdx?_eq_some_iff (d : ScatterDims s si u) (j : u.Idx) (idx : IVec si w) (i : s.Idx) :
    d.resultIdx? j idx = some i ↔ ∀ a, d.start j idx a + d.window j a = ((i a).val : Int) := by
  unfold ScatterDims.resultIdx?
  constructor
  · intro h a
    split at h
    · rename_i hc
      have hi := Option.some.inj h
      have hc' := hc a
      rw [← hi]
      simp only []
      omega
    · cases h
  · intro h
    have hc : ∀ a, 0 ≤ d.start j idx a + d.window j a ∧ d.start j idx a + d.window j a < s.size a := fun a => by
      rw [h a]; exact ⟨Int.natCast_nonneg _, by exact_mod_cast (i a).isLt⟩
    rw [dif_pos hc]
    refine congrArg some (funext fun a => Fin.ext ?_)
    simp only [h a, Int.toNat_natCast]

end Landing

/-! ## The record at hand -/

/-- The start table is `[[0], [2]]`. -/
theorem starts_apply (g : Fin 2) : starts (ix2 g 0) = if g.val = 0 then 0#32 else 2#32 := by
  match g with
  | ⟨0, _⟩ => rfl
  | ⟨1, _⟩ => rfl

/-- The start on axis 0 is the table's entry for the update's slab … -/
theorem start_0 (j : S2x4096x4096.Idx) :
    scatter_S3x4096x4096_S2x1_S2x4096x4096_12_0_0_1.start j starts 0 = (starts (ix2 (j 0) 0)).toInt := by
  rfl

/-- … and `0` on the two window axes. -/
theorem start_1 (j : S2x4096x4096.Idx) :
    scatter_S3x4096x4096_S2x1_S2x4096x4096_12_0_0_1.start j starts 1 = 0 := by
  rfl
theorem start_2 (j : S2x4096x4096.Idx) :
    scatter_S3x4096x4096_S2x1_S2x4096x4096_12_0_0_1.start j starts 2 = 0 := by
  rfl

/-- The window coordinate is `0` on the inserted axis and the update's own coordinate on the two window axes. -/
theorem window_0 (j : S2x4096x4096.Idx) : scatter_S3x4096x4096_S2x1_S2x4096x4096_12_0_0_1.window j 0 = 0 := by
  rfl
theorem window_1 (j : S2x4096x4096.Idx) : scatter_S3x4096x4096_S2x1_S2x4096x4096_12_0_0_1.window j 1 = (j 1).val := by
  rfl
theorem window_2 (j : S2x4096x4096.Idx) : scatter_S3x4096x4096_S2x1_S2x4096x4096_12_0_0_1.window j 2 = (j 2).val := by
  rfl

/-- Update index `j` lands at `(q, o, i)` exactly when `q` is its slab's start row and `(o, i)` its window coordinates. -/
theorem lands_iff (j : S2x4096x4096.Idx) (q : Fin 3) (o i : Fin 4096) :
    scatter_S3x4096x4096_S2x1_S2x4096x4096_12_0_0_1.resultIdx? j starts = some (ix3 q o i)
      ↔ (if (j 0).val = 0 then 0 else 2) = q.val ∧ (j 1).val = o.val ∧ (j 2).val = i.val := by
  have ht : (starts (ix2 (j 0) 0)).toInt = ((if (j 0).val = 0 then 0 else 2 : Nat) : Int) := by
    refine (congrArg BitVec.toInt (starts_apply (j 0))).trans ?_
    split <;> rfl
  rw [resultIdx?_eq_some_iff]
  constructor
  · intro h
    have h0 : scatter_S3x4096x4096_S2x1_S2x4096x4096_12_0_0_1.start j starts 0
        + scatter_S3x4096x4096_S2x1_S2x4096x4096_12_0_0_1.window j 0 = (q.val : Int) := h 0
    have h1 : scatter_S3x4096x4096_S2x1_S2x4096x4096_12_0_0_1.start j starts 1
        + scatter_S3x4096x4096_S2x1_S2x4096x4096_12_0_0_1.window j 1 = (o.val : Int) := h 1
    have h2 : scatter_S3x4096x4096_S2x1_S2x4096x4096_12_0_0_1.start j starts 2
        + scatter_S3x4096x4096_S2x1_S2x4096x4096_12_0_0_1.window j 2 = (i.val : Int) := h 2
    rw [start_0, window_0, ht] at h0
    rw [start_1, window_1] at h1
    rw [start_2, window_2] at h2
    refine ⟨?_, ?_, ?_⟩ <;> omega
  · rintro ⟨h0, h1, h2⟩ a
    match a with
    | ⟨0, _⟩ =>
      show scatter_S3x4096x4096_S2x1_S2x4096x4096_12_0_0_1.start j starts 0
        + scatter_S3x4096x4096_S2x1_S2x4096x4096_12_0_0_1.window j 0 = (q.val : Int)
      rw [start_0, window_0, ht]; omega
    | ⟨1, _⟩ =>
      show scatter_S3x4096x4096_S2x1_S2x4096x4096_12_0_0_1.start j starts 1
        + scatter_S3x4096x4096_S2x1_S2x4096x4096_12_0_0_1.window j 1 = (o.val : Int)
      rw [start_1, window_1]; omega
    | ⟨2, _⟩ =>
      show scatter_S3x4096x4096_S2x1_S2x4096x4096_12_0_0_1.start j starts 2
        + scatter_S3x4096x4096_S2x1_S2x4096x4096_12_0_0_1.window j 2 = (i.val : Int)
      rw [start_2, window_2]; omega

/-- The zero operand reads `0` everywhere. -/
theorem zeros_apply (k : S3x4096x4096.Idx) :
    broadcastInDim S3x4096x4096 ![] bcast_S_S3x4096x4096 (constant (F := Ideal) S_ .f32 0x00000000#32) k = 0 :=
  Ideal.ofBits_zero_f32

/-- THE SCATTERED ARRAY BY BLOCK: block 0 is slab 0 of the update, block 2 is slab 1, block 1 is zero. -/
theorem blocks_apply (upd : FVec Ideal S2x4096x4096 .f32) (q : Fin 3) (o i : Fin 4096) :
    blocks (F := Ideal) upd (ix3 q o i) = if q.val = 0 then upd (ix3 0 o i) else if q.val = 2 then upd (ix3 1 o i) else 0 := by
  unfold blocks
  have hq : q.val < 3 := q.isLt
  rcases (by omega : q.val = 0 ∨ q.val = 1 ∨ q.val = 2) with h | h | h
  · -- block 0: only update index (0, o, i) lands here
    rw [if_pos h]
    refine scatter_apply_hit _ _ _ _ _ (ix3 0 o i) ((lands_iff _ _ _ _).2 ⟨h.symm, rfl, rfl⟩) (fun j' hj' => ?_)
    obtain ⟨h0, h1, h2⟩ := (lands_iff _ _ _ _).1 hj'
    have e0 : j' 0 = (0 : Fin 2) := Fin.ext (by
      show (j' 0).val = 0
      split at h0 <;> omega)
    have e1 : j' 1 = o := Fin.ext h1
    have e2 : j' 2 = i := Fin.ext h2
    refine (eq_ix3 j').trans ?_
    rw [e0, e1, e2]; rfl
  · -- block 1: no update index lands here
    rw [if_neg (by omega), if_neg (by omega)]
    refine (scatter_apply_miss _ _ _ _ _ (fun j hj => ?_)).trans (zeros_apply _)
    obtain ⟨h0, _, _⟩ := (lands_iff _ _ _ _).1 hj
    split at h0 <;> omega
  · -- block 2: only update index (1, o, i) lands here
    rw [if_neg (by omega), if_pos h]
    refine scatter_apply_hit _ _ _ _ _ (ix3 1 o i) ((lands_iff _ _ _ _).2 ⟨h.symm, rfl, rfl⟩) (fun j' hj' => ?_)
    obtain ⟨h0, h1, h2⟩ := (lands_iff _ _ _ _).1 hj'
    have e0 : j' 0 = (1 : Fin 2) := Fin.ext (by
      have hlt : (j' 0).val < 2 := (j' 0).isLt
      show (j' 0).val = 1
      split at h0 <;> omega)
    have e1 : j' 1 = o := Fin.ext h1
    have e2 : j' 2 = i := Fin.ext h2
    refine (eq_ix3 j').trans ?_
    rw [e0, e1, e2]; rfl

end Cert.ReferenceIdeal.RefValue

end
-- ==== Proof.RefValue.lean ====
/-
  The reference's term is the merged form, index by index.

  The reference views the two stacked factors by group (two reshapes), multiplies them group by group into the two
  merged weights, writes those into blocks 0 and 2 of a zero array of three blocks, flattens the blocks
  to one matrix of 12288 rows and contracts the input against it along the input axis. Over the extended reals
  every product is a plain finite sum and a reshape keeps the row-major position, so:

  * entry (g, o, i) of the batched product is the sum over r of B_g (o, r) * A_g (r, i), the merged weight's entry;
  * entry (b, s, n) of the result is the sum over i of x (b, s, i) times the entry (n / 4096, n % 4096, i) of
    the blocks, which, given the blocks read at an index (a hypothesis here), is the full merged weight's entry.
-/
import proofs.«131344_j58076547776655_2_alg».proof.Proof.RefTerm
import proofs.«131344_j58076547776655_2_alg».proof.Proof.Spec
import Idealize.ShloMosaic.PureOps.Ideal
import Idealize.ShloMosaic.PureOps.Ideal.Laws
import Idealize.ShloMosaic.PureOps.Dims
import Idealize.ShloMosaic.PureOps.Contract
import Idealize.ShloMosaic.Lib.ValueIdx
import Idealize.ShloMosaic.Lib.Pipeline.Value
import Idealize.ShloMosaic.Lib.StackMember

noncomputable section

open scoped BigOperators

namespace Cert.ReferenceIdeal.RefValue

open Cert.ReferenceIdeal Idealize.ShloMosaic Idealize.ShloMosaic.ValueIdx
open Cert.ReferenceIdeal.Facts₀

/-! ## The three reshapes read at an index: a reshape keeps the row-major position -/

/-- The first factors viewed by group: entry (g, r, i) is row g * 16 + r of the stacked array. -/
theorem viewA_apply (wA : FVec Ideal S32x4096 .f32) (g : Fin 2) (r : Fin 16) (i : Fin 4096) :
    shapeCast S2x16x4096 wA shapeCasts_S32x4096_S2x16x4096 (ix3 g r i) = wA (ix2 (Cert.LowRank.rowA g r) i) := by
  refine shapeCast_apply wA _ (ix3 g r i) (ix2 (Cert.LowRank.rowA g r) i) ?_
  rw [Shape.rowMajor_val_two, Shape.rowMajor_val_three]
  rfl

/-- The second factors viewed by group: entry (g, o, r) is row g * 4096 + o of the stacked array. -/
theorem viewB_apply (wB : FVec Ideal S8192x16 .f32) (g : Fin 2) (o : Fin 4096) (r : Fin 16) :
    shapeCast S2x4096x16 wB shapeCasts_S8192x16_S2x4096x16 (ix3 g o r) = wB (ix2 (Cert.LowRank.rowB g o) r) := by
  refine shapeCast_apply wB _ (ix3 g o r) (ix2 (Cert.LowRank.rowB g o) r) ?_
  rw [Shape.rowMajor_val_two, Shape.rowMajor_val_three]
  rfl

/-- The three blocks flattened: row n of the flat matrix is row n % 4096 of block n / 4096. -/
theorem flat_apply (v : FVec Ideal S3x4096x4096 .f32) (n : Fin 12288) (i : Fin 4096) :
    shapeCast S12288x4096 v shapeCasts_S3x4096x4096_S12288x4096 (ix2 n i)
      = v (ix3 (⟨n.val / 4096, by have h := n.isLt; omega⟩ : Fin 3) (⟨n.val % 4096, Nat.mod_lt _ (by decide)⟩ : Fin 4096) i) := by
  refine shapeCast_apply v _ (ix2 n i) _ ?_
  rw [Shape.rowMajor_val_two, Shape.rowMajor_val_three]
  show (n.val / 4096 * 4096 + n.val % 4096) * 4096 + i.val = n.val * 4096 + i.val
  have h := Nat.div_add_mod' n.val 4096
  rw [h]

/-! ## The batched product of the two views -/

/-- Entry (g, o, i) of the batched product is the merged weight's entry: the sum over r of B_g (o, r) * A_g (r, i). -/
theorem deltas_apply (wA : FVec Ideal S32x4096 .f32) (wB : FVec Ideal S8192x16 .f32) (g : Fin 2) (o i : Fin 4096) :
    deltas (F := Ideal) wA wB (ix3 g o i) = Cert.LowRank.delta wA wB g o i := by
  unfold deltas Cert.LowRank.delta
  refine (StackMember.dotGeneral_stack_apply (G := 2) (m := 4096) (n := 4096) (k := 16)
    dot_S2x4096x16_S2x16x4096_S2x4096x4096_2_1_1_2_0_0_wf none _ _ g o i).trans ?_
  refine Finset.sum_congr rfl fun r _ => ?_
  rw [viewB_apply, viewA_apply]

/-! ## The contraction of the input against the flat matrix -/

/-- The input [2, 512, 4096] contracted along its last axis against a [12288, 4096] matrix along its last axis:
    entry (b, s, n) is the sum over k of x (b, s, k) * w (n, k). -/
theorem outer_apply (x : FVec Ideal S2x512x4096 .f32) (w : FVec Ideal S12288x4096 .f32)
    (b : Fin 2) (s : Fin 512) (n : Fin 12288) :
    Host.dotGeneral dot_S2x512x4096_S12288x4096_S2x512x12288_2_1_01_0_n_n none x w (ix3 b s n)
      = ∑ k : Fin 4096, x (ix3 b s k) * w (ix2 n k) := by
  show FloatOps.dotGeneral _ none _ x w (ix3 b s n) = _
  rw [Ideal.dotGeneral_apply,
    ← Equiv.sum_comp (contrEquiv1 dot_S2x512x4096_S12288x4096_S2x512x12288_2_1_01_0_n_n 4096 rfl rfl).symm]
  refine Finset.sum_congr rfl fun c _ => ?_
  have c3 := contrEquiv1_symm_val dot_S2x512x4096_S12288x4096_S2x512x12288_2_1_01_0_n_n 4096 rfl rfl c
  have l3 : dot_S2x512x4096_S12288x4096_S2x512x12288_2_1_01_0_n_n.lhsIdx (ix3 b s n)
      ((contrEquiv1 dot_S2x512x4096_S12288x4096_S2x512x12288_2_1_01_0_n_n 4096 rfl rfl).symm c) = ix3 b s c := by
    funext ax; apply Fin.ext
    match ax with
    | ⟨0, _⟩ => simp [DotDims.lhsIdx, dot_S2x512x4096_S12288x4096_S2x512x12288_2_1_01_0_n_n]; rfl
    | ⟨1, _⟩ => simp [DotDims.lhsIdx, dot_S2x512x4096_S12288x4096_S2x512x12288_2_1_01_0_n_n]; rfl
    | ⟨2, _⟩ => simp [DotDims.lhsIdx, dot_S2x512x4096_S12288x4096_S2x512x12288_2_1_01_0_n_n]; exact c3
  have r3 : dot_S2x512x4096_S12288x4096_S2x512x12288_2_1_01_0_n_n.rhsIdx (ix3 b s n)
      ((contrEquiv1 dot_S2x512x4096_S12288x4096_S2x512x12288_2_1_01_0_n_n 4096 rfl rfl).symm c) = ix2 n c := by
    funext ax; apply Fin.ext
    match ax with
    | ⟨0, _⟩ => simp [DotDims.rhsIdx, dot_S2x512x4096_S12288x4096_S2x512x12288_2_1_01_0_n_n]; rfl
    | ⟨1, _⟩ => simp [DotDims.rhsIdx, dot_S2x512x4096_S12288x4096_S2x512x12288_2_1_01_0_n_n]; exact c3
  rw [l3, r3]

/-! ## The reference's term -/

/-- THE REFERENCE'S TERM IS THE MERGED RESULT, given the three blocks read at an index: blocks 0 and 2 carry the
    two written arrays and block 1 is zero. -/
theorem refTerm_eq
    (hblocks : ∀ (upd : FVec Ideal S2x4096x4096 .f32) (q : Fin 3) (o i : Fin 4096),
      blocks (F := Ideal) upd (ix3 q o i) = if q.val = 0 then upd (ix3 0 o i) else if q.val = 2 then upd (ix3 1 o i) else 0)
    (x : FVec Ideal S2x512x4096 .f32) (wA : FVec Ideal S32x4096 .f32) (wB : FVec Ideal S8192x16 .f32) :
    refTerm (F := Ideal) x wA wB = Cert.LowRank.mergedOut x wA wB := by
  funext j
  obtain ⟨b, s, n, rfl⟩ : ∃ (b : Fin 2) (s : Fin 512) (n : Fin 12288), j = ix3 b s n := ⟨j 0, j 1, j 2, eq_ix3 j⟩
  unfold refTerm Cert.LowRank.mergedOut
  refine (outer_apply x _ b s n).trans ?_
  refine Finset.sum_congr rfl fun i _ => ?_
  rw [flat_apply, hblocks]
  unfold Cert.LowRank.weight
  show x (ix3 b s i) * _ = x (ix3 b s i) * _
  congr 1
  split_ifs <;> first | rfl | exact deltas_apply wA wB _ _ _

end Cert.ReferenceIdeal.RefValue

end
-- ==== Proof.Algebra.lean ====
/-
  The factored and the merged form of a low-rank linear map agree on real arguments.

  For one group the two forms are the two ways of bracketing a triple product:
  (sum over r of (sum over i of x i * a r i) * b r) = (sum over i of x i * (sum over r of b r * a r i)). Over the real
  numbers this is distributivity and an exchange of the two finite sums. Over the extended reals distributivity and
  moving a factor across a sum fail at the infinities, so the identity is proved for families whose entries are
  (coercions of) real numbers, by pushing the coercion outside every product and every finite sum and using the real
  identity.

  The result has three column blocks of width 4096. On block 0 (column n < 4096) both forms are group 0's product at
  output row n; on block 2 (8192 ≤ n) both are group 1's product at output row n - 8192; on block 1 the factored form
  is zero by definition and the merged form is a sum of products with a zero weight, which is zero with no finiteness
  needed.
-/
import proofs.«131344_j58076547776655_2_alg».proof.Proof.Spec

noncomputable section

open Idealize.ShloMosaic Idealize.ShloMosaic.ValueIdx Cert.LowRank
open scoped BigOperators

namespace Cert.LowRank

/-- The coercion of the reals into the extended reals commutes with finite sums. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The two bracketings of a triple product, over the reals. -/
private theorem real_swap {ι κ : Type*} [Fintype ι] [Fintype κ] (x : ι → ℝ) (a : κ → ι → ℝ) (b : κ → ℝ) :
    ∑ r, (∑ i, x i * a r i) * b r = ∑ i, x i * ∑ r, b r * a r i := by
  simp only [Finset.sum_mul, Finset.mul_sum]
  rw [Finset.sum_comm]
  refine Finset.sum_congr rfl fun i _ => Finset.sum_congr rfl fun r _ => ?_
  ring

/-- The two bracketings of a triple product, over the extended reals, for real-valued families. -/
private theorem ereal_swap {ι κ : Type*} [Fintype ι] [Fintype κ] (x : ι → ℝ) (a : κ → ι → ℝ) (b : κ → ℝ) :
    ∑ r, (∑ i, (x i : EReal) * (a r i : EReal)) * (b r : EReal)
      = ∑ i, (x i : EReal) * ∑ r, (b r : EReal) * (a r i : EReal) := by
  have hl : ∑ r, (∑ i, (x i : EReal) * (a r i : EReal)) * (b r : EReal)
      = ((∑ r, (∑ i, x i * a r i) * b r : ℝ) : EReal) := by
    rw [coe_sum]
    refine Finset.sum_congr rfl fun r _ => ?_
    rw [EReal.coe_mul, coe_sum]
    refine congrArg (· * (b r : EReal)) (Finset.sum_congr rfl fun i _ => ?_)
    rw [EReal.coe_mul]
  have hr : ∑ i, (x i : EReal) * ∑ r, (b r : EReal) * (a r i : EReal)
      = ((∑ i, x i * ∑ r, b r * a r i : ℝ) : EReal) := by
    rw [coe_sum]
    refine Finset.sum_congr rfl fun i _ => ?_
    rw [EReal.coe_mul, coe_sum]
    refine congrArg ((x i : EReal) * ·) (Finset.sum_congr rfl fun r _ => ?_)
    rw [EReal.coe_mul]
  rw [hl, hr, real_swap]

/-- The merged weight on block 0 is group 0's merged weight. -/
private theorem weight_block0 (wA : FVec Ideal SA .f32) (wB : FVec Ideal SB .f32) (q : Fin 3) (hq : q.val = 0)
    (o i : Fin 4096) : weight wA wB q o i = delta wA wB 0 o i := by
  unfold weight; rw [if_pos hq]

/-- The merged weight on block 1 is zero. -/
private theorem weight_block1 (wA : FVec Ideal SA .f32) (wB : FVec Ideal SB .f32) (q : Fin 3) (hq : q.val = 1)
    (o i : Fin 4096) : weight wA wB q o i = 0 := by
  unfold weight; rw [if_neg (by omega), if_neg (by omega)]

/-- The merged weight on block 2 is group 1's merged weight. -/
private theorem weight_block2 (wA : FVec Ideal SA .f32) (wB : FVec Ideal SB .f32) (q : Fin 3) (hq : q.val = 2)
    (o i : Fin 4096) : weight wA wB q o i = delta wA wB 1 o i := by
  unfold weight; rw [if_neg (by omega), if_pos hq]

/-- THE TWO FORMS AGREE when every entry of the three argument arrays is a real number. -/
theorem factoredOut_eq_mergedOut (x : FVec Ideal SX .f32) (wA : FVec Ideal SA .f32) (wB : FVec Ideal SB .f32)
    (hx : ∀ i, ∃ a : ℝ, x i = (a : EReal)) (hA : ∀ i, ∃ a : ℝ, wA i = (a : EReal)) (hB : ∀ i, ∃ a : ℝ, wB i = (a : EReal)) :
    factoredOut x wA wB = mergedOut x wA wB := by
  choose xr hxr using hx
  choose ar har using hA
  choose br hbr using hB
  -- one group: the factored product is the argument against the group's merged weight
  have group : ∀ (g : Fin 2) (b : Fin 2) (s : Fin 512) (o : Fin 4096),
      factored x wA wB g b s o = ∑ i : Fin 4096, x (ix3 b s i) * delta wA wB g o i := by
    intro g b s o
    unfold factored delta
    simp only [hxr, har, hbr]
    exact ereal_swap (fun i => xr (ix3 b s i)) (fun r i => ar (ix2 (rowA g r) i)) (fun r => br (ix2 (rowB g o) r))
  funext j
  have hn : (j 2).val < 12288 := (j 2).isLt
  unfold factoredOut mergedOut
  by_cases h0 : (j 2).val < 4096
  · -- block 0
    rw [dif_pos h0]
    refine (group 0 (j 0) (j 1) ⟨(j 2).val, h0⟩).trans ?_
    have ho : (⟨(j 2).val % 4096, Nat.mod_lt _ (by decide)⟩ : Fin 4096) = ⟨(j 2).val, h0⟩ :=
      Fin.ext (Nat.mod_eq_of_lt h0)
    refine Finset.sum_congr rfl fun i _ => ?_
    rw [weight_block0 wA wB _ (by show (j 2).val / 4096 = 0; omega), ho]
  · rw [dif_neg h0]
    by_cases h1 : (j 2).val < 8192
    · -- block 1
      rw [dif_pos h1]
      symm
      refine Finset.sum_eq_zero fun i _ => ?_
      rw [weight_block1 wA wB _ (by show (j 2).val / 4096 = 1; omega), mul_zero]
    · -- block 2
      rw [dif_neg h1]
      refine (group 1 (j 0) (j 1) ⟨(j 2).val - 8192, by omega⟩).trans ?_
      have ho : (⟨(j 2).val % 4096, Nat.mod_lt _ (by decide)⟩ : Fin 4096)
          = ⟨(j 2).val - 8192, by omega⟩ := Fin.ext (by show (j 2).val % 4096 = (j 2).val - 8192; omega)
      refine Finset.sum_congr rfl fun i _ => ?_
      rw [weight_block2 wA wB _ (by show (j 2).val / 4096 = 2; omega), ho]

end Cert.LowRank

end
-- ==== Proof.Finite.lean ====
/-
  Finite inputs are real numbers.

  The precondition compares, for each of the three input arrays, the absolute value |v| of every
  entry with +infinity by the strict order, reduces each array of comparison bits by "and" over all
  its axes, and takes the "and" of the three resulting bits. Read at the extended reals, the
  precondition being 1 says that every entry v of every array satisfies max v (-v) < ⊤; an extended
  real with that property is neither ⊤ nor ⊥, so it is (the image of) a real number.
-/
import proofs.«131344_j58076547776655_2_alg».proof.Pre_finite_inputs
import proofs.«131344_j58076547776655_2_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.FiniteInputs

open Idealize.ShloMosaic Idealize.ShloMosaic.ValueIdx Cert.Pre_finite_inputs

/-- The scalar shape has exactly one index. -/
theorem subsingleton_scalar_idx : Subsingleton S_.Idx := ⟨fun _ _ => funext fun d => d.elim0⟩

/-- The f32 pattern 0x7F800000 denotes +infinity. -/
theorem ofBits_posInf : Ideal.ofBits .f32 0x7F800000#32 = (⊤ : EReal) := by
  simp [Ideal.ofBits, Ideal.ieee]

/-- An extended real whose absolute value is strictly below +infinity is a real number. -/
theorem real_of_abs_lt_top (e : EReal) (h : max e (-e) < ⊤) : ∃ a : ℝ, e = (a : EReal) := by
  induction e using EReal.rec with
  | bot => simp at h
  | coe a => exact ⟨a, rfl⟩
  | top => simp at h

/-- The element step: the comparison bit |e| < +infinity being 1 makes `e` a real number. -/
theorem real_of_cmp (e : EReal)
    (h : FloatOps.cmpf (F := Ideal) (φ := .f32) .olt (FloatOps.hostAbsf (F := Ideal) (φ := .f32) e)
      (FloatOps.ofBits (F := Ideal) .f32 0x7F800000#32) = 1#1) :
    ∃ a : ℝ, e = (a : EReal) := by
  apply real_of_abs_lt_top
  have h' : Ideal.cmp .olt (max e (-e)) (Ideal.ofBits .f32 0x7F800000#32) = 1#1 := h
  rw [ofBits_posInf] at h'
  by_contra hn
  simp [Ideal.cmp, hn] at h'

/-- The array step, for any shape: if the "and" over all axes of the bits |x i| < +infinity is 1,
    every entry of `x` is a real number. -/
theorem real_of_all {S : Shape} {axes : List (Fin S.rank)} (x : FVec Ideal S .f32)
    (hb : S_.BroadcastsInDim S (![] : Fin 0 → Fin S.rank)) (hr : S.ReducesTo axes S_)
    (hu : 0 < S_.numel) (init : IVec S_ 1)
    (h : Host.reduce IntOp.andi
        (cmpf .olt (Host.absf x) (broadcastInDim S ![] hb (constant (F := Ideal) S_ .f32 0x7F800000#32)))
        init hr hu ix0 = 1#1) :
    ∀ i, ∃ a : ℝ, x i = (a : EReal) := by
  intro i
  haveI : Subsingleton S_.Idx := subsingleton_scalar_idx
  exact real_of_cmp (x i) (Host.reduce_andi_all _ init hr hu ix0 h i)

/-- Every entry of the three inputs is a real number when the precondition holds. -/
theorem real_of_pre (x : FVec Ideal Cert.Pre_finite_inputs.S2x512x4096 .f32)
    (wA : FVec Ideal Cert.Pre_finite_inputs.S32x4096 .f32)
    (wB : FVec Ideal Cert.Pre_finite_inputs.S8192x16 .f32)
    (h : Cert.Pre_finite_inputs.fn (F := Ideal) x wA wB = fun _ => 1#1) :
    (∀ i, ∃ a : ℝ, x i = (a : EReal)) ∧ (∀ i, ∃ a : ℝ, wA i = (a : EReal)) ∧
      (∀ i, ∃ a : ℝ, wB i = (a : EReal)) := by
  have h0 := congrFun h ix0
  unfold Cert.Pre_finite_inputs.fn at h0
  dsimp only at h0
  obtain ⟨h12, h3⟩ := IntOp.andi_eq_one.1 h0
  obtain ⟨h1, h2⟩ := IntOp.andi_eq_one.1 h12
  exact ⟨real_of_all x _ _ _ _ h1, real_of_all wA _ _ _ _ h2, real_of_all wB _ _ _ _ h3⟩

end Cert.FiniteInputs

end
-- ==== Proof.lean ====
/-
  The certificate of a merged low-rank linear map.

  The kernel computes, for the two carrying column blocks of a `[2, 512, 12288]` result, the FACTORED product
  `(x · A_gᵀ) · B_gᵀ` of the rows of `x` with group `g`'s two factors, and zeros on the middle block; the reference
  first MERGES `W = B_g · A_g` for each group, places the two merged weights in rows 0 and 2 of a zero `[3, 4096, 4096]`
  array, and contracts `x` against the flattened weight. Over the extended reals the two results are
  `∑ r, (∑ i, x · A) · B` and `∑ i, x · (∑ r, B · A)`: equal by distributivity and an exchange of the two sums, which
  holds when every entry is a real number — what the precondition states. The middle block is `0` against
  `∑ i, x · 0`.

  The kernel program's value is read off its frame run block by block (Proof/KerPayload, KerHost, KerBlock, KerValue);
  the reference's run is the list of its operations, and its term is read index by index (Proof/RefTerm, RefRun,
  RefScatter, RefValue); Proof/Spec states both forms, Proof/Algebra joins them, Proof/Finite reads the precondition.
  No operation of the kernel was rewritten by the idealization, so the preservation conjunct is trivial.
-/
import proofs.«131344_j58076547776655_2_alg».proof.Defs
import proofs.«131344_j58076547776655_2_alg».proof.Proof.Gen.Kernel
import proofs.«131344_j58076547776655_2_alg».proof.Proof.Gen.Kernel.Frame
import proofs.«131344_j58076547776655_2_alg».proof.Proof.Gen.KernelIdeal
import proofs.«131344_j58076547776655_2_alg».proof.Proof.Gen.KernelIdeal.Frame
import proofs.«131344_j58076547776655_2_alg».proof.Proof.Gen.ReferenceIdeal
import proofs.«131344_j58076547776655_2_alg».proof.Proof.Gen.Pre_finite_inputs
import proofs.«131344_j58076547776655_2_alg».proof.Proof.KerValue
import proofs.«131344_j58076547776655_2_alg».proof.Proof.RefRun
import proofs.«131344_j58076547776655_2_alg».proof.Proof.RefScatter
import proofs.«131344_j58076547776655_2_alg».proof.Proof.RefValue
import proofs.«131344_j58076547776655_2_alg».proof.Proof.Algebra
import proofs.«131344_j58076547776655_2_alg».proof.Proof.Finite
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2)
    (Cert.ReferenceIdeal.RefValue.run_term (F := Ideal) m ρ)

/-- The idealization rewrote nothing. -/
theorem preserves : Cert.preserves_Kernel_KernelIdeal := trivial

/-- From arguments that agree and are finite, the kernel program ends at the factored form and the reference at the
    merged form of the same arguments: one function on real entries. -/
theorem algebraic : Cert.algebraic_KernelIdeal_ReferenceIdeal := by
  intro m ρ m' ρ' hpre hagree
  refine ⟨fun c => Cert.LowRank.factoredOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KerValue.run m ρ, ?_⟩
  refine (θ_run Cert.ReferenceIdeal.defs _ _).mono (fun _ h c => ⟨(h c).1.trans ?_, (h c).2⟩)
    (Cert.ReferenceIdeal.RefValue.run_term (F := Ideal) m' ρ')
  rw [(hagree c).1, (hagree c).2.1, (hagree c).2.2,
    Cert.ReferenceIdeal.RefValue.refTerm_eq Cert.ReferenceIdeal.RefValue.blocks_apply]
  obtain ⟨hx, hA, hB⟩ := Cert.FiniteInputs.real_of_pre _ _ _ (hpre c)
  exact (Cert.LowRank.factoredOut_eq_mergedOut _ _ _ hx hA hB).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
